-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x384 : Shape := ⟨2, ![96, 384]⟩
abbrev S384 : Shape := ⟨1, ![384]⟩
abbrev S384x40 : Shape := ⟨2, ![384, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x96 : S_.BroadcastsInDim S512x96 (![] : Fin 0 → Fin S512x96.rank)
  reducesTo_S512x96_S_d0_1 : S512x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x384 : S_.BroadcastsInDim S96x384 (![] : Fin 0 → Fin S96x384.rank)
  reducesTo_S96x384_S_d0_1 : S96x384.ReducesTo [0, 1] S_
  bcast_S_S384 : S_.BroadcastsInDim S384 (![] : Fin 0 → Fin S384.rank)
  reducesTo_S384_S_d0 : S384.ReducesTo [0] S_
  bcast_S_S384x40 : S_.BroadcastsInDim S384x40 (![] : Fin 0 → Fin S384x40.rank)
  reducesTo_S384x40_S_d0_1 : S384x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S384x40 .f32) (main_arg9 : FVec F S40 .f32) (main_v33 : IVec S_ 1) : IVec S_ 1 :=
  let main_v34 : FVec F S384x40 .f32 := Host.absf main_arg8
  let main_cst_12 : FVec F S_ .f32 := constant S_ .f32 0x7F800000#32
  let main_v35 : FVec F S384x40 .f32 := broadcastInDim S384x40 ![] bcast_S_S384x40 main_cst_12
  let main_v36 : IVec S384x40 1 := cmpf .olt main_v34 main_v35
  let main_c_13 : IVec S_ 1 := constantI S_ 1 1#1
  let main_v37 : IVec S_ 1 := (fun x v => Host.reduce IntOp.andi x v reducesTo_S384x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S96 .f32) (main_arg6 : FVec F S96x384 .f32) (main_arg7 : FVec F S384 .f32) (main_arg8 : FVec F S384x40 .f32) (main_arg9 : FVec F S40 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x384 .f32 := Host.absf main_arg6
  let main_cst_8 : FVec F S_ .f32 := constant S_ .f32 0x7F800000#32
  let main_v25 : FVec F S96x384 .f32 := broadcastInDim S96x384 ![] bcast_S_S96x384 main_cst_8
  let main_v26 : IVec S96x384 1 := cmpf .olt main_v24 main_v25
  let main_c_9 : IVec S_ 1 := constantI S_ 1 1#1
  let main_v27 : IVec S_ 1 := (fun x v => Host.reduce IntOp.andi x v reducesTo_S96x384_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x96 .f32) (main_arg3 : FVec F S96 .f32) (main_arg4 : FVec F S96x96 .f32) (main_arg5 : FVec F S96 .f32) (main_arg6 : FVec F S96x384 .f32) (main_arg7 : FVec F S384 .f32) (main_arg8 : FVec F S384x40 .f32) (main_arg9 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x96 .f32 := Host.absf main_arg2
  let main_cst_0 : FVec F S_ .f32 := constant S_ .f32 0x7F800000#32
  let main_v5 : FVec F S512x96 .f32 := broadcastInDim S512x96 ![] bcast_S_S512x96 main_cst_0
  let main_v6 : IVec S512x96 1 := cmpf .olt main_v4 main_v5
  let main_c_1 : IVec S_ 1 := constantI S_ 1 1#1
  let main_v7 : IVec S_ 1 := (fun x v => Host.reduce IntOp.andi x v reducesTo_S512x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x384 : Shape := ⟨2, ![96, 384]⟩
abbrev S384 : Shape := ⟨1, ![384]⟩
abbrev S384x40 : Shape := ⟨2, ![384, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x96 : Shape := ⟨2, ![50000, 96]⟩
abbrev S5000x512 : Shape := ⟨2, ![5000, 512]⟩
abbrev S5000x96 : Shape := ⟨2, ![5000, 96]⟩
abbrev S800000x96 : Shape := ⟨2, ![800000, 96]⟩
abbrev S1x96 : Shape := ⟨2, ![1, 96]⟩
abbrev S5000x1 : Shape := ⟨2, ![5000, 1]⟩
abbrev S1x384 : Shape := ⟨2, ![1, 384]⟩
abbrev S1x40 : Shape := ⟨2, ![1, 40]⟩
abbrev S50000x40 : Shape := ⟨2, ![50000, 40]⟩
abbrev S5000x40 : Shape := ⟨2, ![5000, 40]⟩
abbrev S5000x384 : Shape := ⟨2, ![5000, 384]⟩

abbrev nBuf : Space → Nat
  | .hbm => 90
  | .vmem => 28
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x384, .f32⟩
  | .hbm, ⟨7, _⟩ => ⟨S384, .f32⟩
  | .hbm, ⟨8, _⟩ => ⟨S384x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S50000, .f32⟩
  | .hbm, ⟨44, _⟩ => ⟨S50000x1, .f32⟩
  | .hbm, ⟨45, _⟩ => ⟨S512x96, .bf16⟩
  | .hbm, ⟨46, _⟩ => ⟨S96x96, .bf16⟩
  | .hbm, ⟨47, _⟩ => ⟨S96x384, .bf16⟩
  | .hbm, ⟨48, _⟩ => ⟨S384x40, .bf16⟩
  | .hbm, ⟨49, _⟩ => ⟨S50000x96, .bf16⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x96, .bf16⟩
  | .hbm, ⟨59, _⟩ => ⟨S800000x96, .f32⟩
  | .hbm, ⟨60, _⟩ => ⟨S800000x1, .f32⟩
  | .hbm, ⟨61, _⟩ => ⟨S800000x96, .f32⟩
  | .hbm, ⟨62, _⟩ => ⟨S800000x96, .f32⟩
  | .hbm, ⟨63, _⟩ => ⟨S_, .f32⟩
  | .hbm, ⟨64, _⟩ => ⟨S50000x96, .f32⟩
  | .hbm, ⟨65, _⟩ => ⟨S800000x1, .i32⟩
  | .hbm, ⟨66, _⟩ => ⟨S50000x96, .f32⟩
  | .hbm, ⟨67, _⟩ => ⟨S1x96, .f32⟩
  | .hbm, ⟨68, _⟩ => ⟨S50000x96, .bf16⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x96, .bf16⟩
  | .hbm, ⟨78, _⟩ => ⟨S800000x96, .f32⟩
  | .hbm, ⟨79, _⟩ => ⟨S800000x1, .f32⟩
  | .hbm, ⟨80, _⟩ => ⟨S800000x96, .f32⟩
  | .hbm, ⟨81, _⟩ => ⟨S800000x96, .f32⟩
  | .hbm, ⟨82, _⟩ => ⟨S_, .f32⟩
  | .hbm, ⟨83, _⟩ => ⟨S50000x96, .f32⟩
  | .hbm, ⟨84, _⟩ => ⟨S800000x1, .i32⟩
  | .hbm, ⟨85, _⟩ => ⟨S50000x96, .f32⟩
  | .hbm, ⟨86, _⟩ => ⟨S1x96, .f32⟩
  | .hbm, ⟨87, _⟩ => ⟨S1x384, .f32⟩
  | .hbm, ⟨88, _⟩ => ⟨S1x40, .f32⟩
  | .hbm, ⟨89, _⟩ => ⟨S50000x40, .f32⟩
  | .local _ .vmem, ⟨0, _⟩ => ⟨S5000x512, .f32⟩
  | .local _ .vmem, ⟨1, _⟩ => ⟨S5000x512, .f32⟩
  | .local _ .vmem, ⟨2, _⟩ => ⟨S512x96, .bf16⟩
  | .local _ .vmem, ⟨3, _⟩ => ⟨S5000x96, .bf16⟩
  | .local _ .vmem, ⟨4, _⟩ => ⟨S5000x96, .bf16⟩
  | .local _ .vmem, ⟨5, _⟩ => ⟨S5000x96, .f32⟩
  | .local _ .vmem, ⟨6, _⟩ => ⟨S5000x96, .f32⟩
  | .local _ .vmem, ⟨7, _⟩ => ⟨S5000x96, .bf16⟩
  | .local _ .vmem, ⟨8, _⟩ => ⟨S5000x96, .bf16⟩
  | .local _ .vmem, ⟨9, _⟩ => ⟨S5000x1, .f32⟩
  | .local _ .vmem, ⟨10, _⟩ => ⟨S5000x1, .f32⟩
  | .local _ .vmem, ⟨11, _⟩ => ⟨S1x96, .f32⟩
  | .local _ .vmem, ⟨12, _⟩ => ⟨S96x96, .bf16⟩
  | .local _ .vmem, ⟨13, _⟩ => ⟨S5000x96, .bf16⟩
  | .local _ .vmem, ⟨14, _⟩ => ⟨S5000x96, .bf16⟩
  | .local _ .vmem, ⟨15, _⟩ => ⟨S5000x96, .f32⟩
  | .local _ .vmem, ⟨16, _⟩ => ⟨S5000x96, .f32⟩
  | .local _ .vmem, ⟨17, _⟩ => ⟨S5000x96, .bf16⟩
  | .local _ .vmem, ⟨18, _⟩ => ⟨S5000x96, .bf16⟩
  | .local _ .vmem, ⟨19, _⟩ => ⟨S5000x1, .f32⟩
  | .local _ .vmem, ⟨20, _⟩ => ⟨S5000x1, .f32⟩
  | .local _ .vmem, ⟨21, _⟩ => ⟨S1x96, .f32⟩
  | .local _ .vmem, ⟨22, _⟩ => ⟨S96x384, .bf16⟩
  | .local _ .vmem, ⟨23, _⟩ => ⟨S1x384, .f32⟩
  | .local _ .vmem, ⟨24, _⟩ => ⟨S384x40, .bf16⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x384 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S384x40 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x40 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x40 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  inb_S512x96_S512x96_0_0 : ∀ a, (![0, 0] : Fin 2 → Nat) a + S512x96.size a ≤ S512x96.size a
  h_S512x96 : 0 < S512x96.numel
  shapeCasts_S512x96_S512x96 : S512x96.ShapeCasts S512x96
  inb_S5000x96_S5000x96_0_0 : ∀ a, (![0, 0] : Fin 2 → Nat) a + S5000x96.size a ≤ S5000x96.size a
  h_S5000x96 : 0 < S5000x96.numel
  packedbf16_S5000x96_S5000x96_0_0 : (Rect.unit (s := S5000x96) ![0, 0] S5000x96.size inb_S5000x96_S5000x96_0_0).PackedRows (EltTy.packing .bf16)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  shapeCasts_S384_S1x384 : S384.ShapeCasts S1x384
  shapeCasts_S40_S1x40 : S40.ShapeCasts S1x40
  inb_S96x384_S96x384_0_0 : ∀ a, (![0, 0] : Fin 2 → Nat) a + S96x384.size a ≤ S96x384.size a
  h_S96x384 : 0 < S96x384.numel
  shapeCasts_S96x384_S96x384 : S96x384.ShapeCasts S96x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S5000x384 : S1x384.Broadcasts S5000x384
  inb_S384x40_S384x40_0_0 : ∀ a, (![0, 0] : Fin 2 → Nat) a + S384x40.size a ≤ S384x40.size a
  h_S384x40 : 0 < S384x40.numel
  shapeCasts_S384x40_S384x40 : S384x40.ShapeCasts S384x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x512_S512x96_S5000x96_1_0_0_1_n_n_wf : DotDims.WF S5000x512 S512x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x384_S5000x384_1_0_0_1_n_n_wf : DotDims.WF S5000x96 S96x384 S5000x384 [1] [0] [0] [1] [] []
  dot_S5000x384_S384x40_S5000x40_1_0_0_1_n_n_wf : DotDims.WF S5000x384 S384x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x96.size a ≤ S512x96.size a
  hwx0_1 : ∀ i : grid0.Coords, EltTy.bits .bf16 = 32 ∨ (Rect.block (s := S512x96) S512x96.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .bf16 = 32 ∨ (Rect.block (s := S50000x96) S5000x96.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .bf16 = 32 ∨ (Rect.block (s := S50000x96) S5000x96.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .bf16 = 32 ∨ (Rect.block (s := S96x96) S96x96.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .bf16 = 32 ∨ (Rect.block (s := S50000x96) S5000x96.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .bf16 = 32 ∨ (Rect.block (s := S50000x96) S5000x96.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x384.size a ≤ S96x384.size a
  hwx2_4 : ∀ i : grid2.Coords, EltTy.bits .bf16 = 32 ∨ (Rect.block (s := S96x384) S96x384.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S384x40.size a ≤ S384x40.size a
  hwx2_6 : ∀ i : grid2.Coords, EltTy.bits .bf16 = 32 ∨ (Rect.block (s := S384x40) S384x40.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x40.size a ≤ S1x40.size a
  hwx2_7 : ∀ i : grid2.Coords, EltTy.bits .f32 = 32 ∨ (Rect.block (s := S1x40) S1x40.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x40.size a ≤ S50000x40.size a
  hwx2_8 : ∀ i : grid2.Coords, EltTy.bits .f32 = 32 ∨ (Rect.block (s := S50000x40) S5000x40.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x512_S512x96_S5000x96_1_0_0_1_n_n : DotDims S5000x512 S512x96 S5000x96 where
  lhsContracting := [1]
  rhsContracting := [0]
  lhsNonContracting := [0]
  rhsNonContracting := [1]
  lhsBatch := []
  rhsBatch := []
  wf := dot_S5000x512_S512x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x384_S5000x384_1_0_0_1_n_n : DotDims S5000x96 S96x384 S5000x384 where
  lhsContracting := [1]
  rhsContracting := [0]
  lhsNonContracting := [0]
  rhsNonContracting := [1]
  lhsBatch := []
  rhsBatch := []
  wf := dot_S5000x96_S96x384_S5000x384_1_0_0_1_n_n_wf
def dot_S5000x384_S384x40_S5000x40_1_0_0_1_n_n : DotDims S5000x384 S384x40 S5000x40 where
  lhsContracting := [1]
  rhsContracting := [0]
  lhsNonContracting := [0]
  rhsNonContracting := [1]
  lhsBatch := []
  rhsBatch := []
  wf := dot_S5000x384_S384x40_S5000x40_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S512x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S96x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S384x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v65) S1x40.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v66) S5000x40.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x96 : Shape := ⟨2, ![512, 96]⟩
abbrev S96 : Shape := ⟨1, ![96]⟩
abbrev S96x96 : Shape := ⟨2, ![96, 96]⟩
abbrev S96x384 : Shape := ⟨2, ![96, 384]⟩
abbrev S384 : Shape := ⟨1, ![384]⟩
abbrev S384x40 : Shape := ⟨2, ![384, 40]⟩
abbrev S40 : Shape := ⟨1, ![40]⟩
abbrev S1x800000 : Shape := ⟨2, ![1, 800000]⟩
abbrev S800000 : Shape := ⟨1, ![800000]⟩
abbrev S50000x96 : Shape := ⟨2, ![50000, 96]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S50000x384 : Shape := ⟨2, ![50000, 384]⟩
abbrev S1x384 : Shape := ⟨2, ![1, 384]⟩
abbrev S50000x40 : Shape := ⟨2, ![50000, 40]⟩
abbrev S1x40 : Shape := ⟨2, ![1, 40]⟩

abbrev nBuf : Space → Nat
  | .hbm => 149
  | .vmem => 0
  | .smem => 0
  | _ => 0

abbrev hbmTy0_0 (i : Nat) : BufTy := match i % 128 with
  | 0 => ⟨S50000x512, .f32⟩
  | 1 => ⟨S2x800000, .i32⟩
  | 2 => ⟨S512x96, .f32⟩
  | 3 => ⟨S96, .f32⟩
  | 4 => ⟨S96x96, .f32⟩
  | 5 => ⟨S96, .f32⟩
  | 6 => ⟨S96x384, .f32⟩
  | 7 => ⟨S384, .f32⟩
  | 8 => ⟨S384x40, .f32⟩
  | 9 => ⟨S40, .f32⟩
  | 10 => ⟨S1x800000, .i32⟩
  | 11 => ⟨S800000, .i32⟩
  | 12 => ⟨S1x800000, .i32⟩
  | 13 => ⟨S800000, .i32⟩
  | 14 => ⟨S50000x96, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x96, .f32⟩
  | 53 => ⟨S800000x1, .f32⟩
  | 54 => ⟨S800000x96, .f32⟩
  | 55 => ⟨S800000x96, .f32⟩
  | 56 => ⟨S_, .f32⟩
  | 57 => ⟨S50000x96, .f32⟩
  | 58 => ⟨S800000x1, .i32⟩
  | 59 => ⟨S50000x96, .f32⟩
  | 60 => ⟨S50000, .f32⟩
  | 61 => ⟨S50000x1, .f32⟩
  | 62 => ⟨S50000x96, .f32⟩
  | 63 => ⟨S50000x96, .f32⟩
  | 64 => ⟨S50000x96, .f32⟩
  | 65 => ⟨S1x96, .f32⟩
  | 66 => ⟨S50000x96, .f32⟩
  | 67 => ⟨S50000x96, .f32⟩
  | 68 => ⟨S50000x96, .f32⟩
  | 69 => ⟨S50000x96, .f32⟩
  | 70 => ⟨S_, .f32⟩
  | 71 => ⟨S50000x96, .f32⟩
  | 72 => ⟨S50000x96, .f32⟩
  | 73 => ⟨S_, .f32⟩
  | 74 => ⟨S50000x96, .f32⟩
  | 75 => ⟨S50000x96, .f32⟩
  | 76 => ⟨S50000x96, .f32⟩
  | 77 => ⟨S_, .f32⟩
  | 78 => ⟨S800000, .f32⟩
  | 79 => ⟨S_, .f32⟩
  | 80 => ⟨S50000, .f32⟩
  | 81 => ⟨S800000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000, .f32⟩
  | 105 => ⟨S800000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x96, .f32⟩
  | 115 => ⟨S800000x1, .f32⟩
  | 116 => ⟨S800000x96, .f32⟩
  | 117 => ⟨S800000x96, .f32⟩
  | 118 => ⟨S_, .f32⟩
  | 119 => ⟨S50000x96, .f32⟩
  | 120 => ⟨S800000x1, .i32⟩
  | 121 => ⟨S50000x96, .f32⟩
  | 122 => ⟨S50000, .f32⟩
  | 123 => ⟨S50000x1, .f32⟩
  | 124 => ⟨S50000x96, .f32⟩
  | 125 => ⟨S50000x96, .f32⟩
  | 126 => ⟨S50000x96, .f32⟩
  | 127 => ⟨S1x96, .f32⟩
  | _ => ⟨S50000x512, .f32⟩

abbrev hbmTy0_1 (i : Nat) : BufTy := match i % 128 with
  | 0 => ⟨S50000x96, .f32⟩
  | 1 => ⟨S50000x96, .f32⟩
  | 2 => ⟨S50000x96, .f32⟩
  | 3 => ⟨S50000x96, .f32⟩
  | 4 => ⟨S_, .f32⟩
  | 5 => ⟨S50000x96, .f32⟩
  | 6 => ⟨S50000x96, .f32⟩
  | 7 => ⟨S_, .f32⟩
  | 8 => ⟨S50000x96, .f32⟩
  | 9 => ⟨S50000x96, .f32⟩
  | 10 => ⟨S50000x384, .f32⟩
  | 11 => ⟨S1x384, .f32⟩
  | 12 => ⟨S50000x384, .f32⟩
  | 13 => ⟨S50000x384, .f32⟩
  | 14 => ⟨S_, .f32⟩
  | 15 => ⟨S50000x384, .f32⟩
  | 16 => ⟨S50000x384, .f32⟩
  | 17 => ⟨S50000x40, .f32⟩
  | 18 => ⟨S1x40, .f32⟩
  | 19 => ⟨S50000x40, .f32⟩
  | 20 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_v101 : Ref sig .tc := ⟨.hbm, 134, rfl⟩
abbrev main_cst_21 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_call0_cst : Ref sig .tc := ⟨.hbm, 142, rfl⟩
abbrev main_call0_v0 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  bcast_S_S50000x384 : S_.BroadcastsInDim S50000x384 (![] : Fin 0 → Fin S50000x384.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x96_S50000x96_1_0_0_1_n_n_wf : DotDims.WF S50000x512 S512x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x384_S50000x384_1_0_0_1_n_n_wf : DotDims.WF S50000x96 S96x384 S50000x384 [1] [0] [0] [1] [] []
  dot_S50000x384_S384x40_S50000x40_1_0_0_1_n_n_wf : DotDims.WF S50000x384 S384x40 S50000x40 [1] [0] [0] [1] [] []

variable [Facts₀]

def dot_S50000x512_S512x96_S50000x96_1_0_0_1_n_n : DotDims S50000x512 S512x96 S50000x96 where
  lhsContracting := [1]
  rhsContracting := [0]
  lhsNonContracting := [0]
  rhsNonContracting := [1]
  lhsBatch := []
  rhsBatch := []
  wf := dot_S50000x512_S512x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x384_S50000x384_1_0_0_1_n_n : DotDims S50000x96 S96x384 S50000x384 where
  lhsContracting := [1]
  rhsContracting := [0]
  lhsNonContracting := [0]
  rhsNonContracting := [1]
  lhsBatch := []
  rhsBatch := []
  wf := dot_S50000x96_S96x384_S50000x384_1_0_0_1_n_n_wf
def dot_S50000x384_S384x40_S50000x40_1_0_0_1_n_n : DotDims S50000x384 S384x40 S50000x40 where
  lhsContracting := [1]
  rhsContracting := [0]
  lhsNonContracting := [0]
  rhsNonContracting := [1]
  lhsBatch := []
  rhsBatch := []
  wf := dot_S50000x384_S384x40_S50000x40_1_0_0_1_n_n_wf

class Facts : Prop extends Facts₀ where

variable [Facts]
-- ==== Proof.KernelRun.lean ====
/-
  The kernel program's run with its result named. The program is three kernel regions among stretches of host
  operations; every weakly fair execution terminates, and the final memory holds, at each unscoped buffer, the
  contents at the last segment boundary. Read at the result buffer this is the array the third region's
  write-backs leave; read at an argument it is the launch contents.
-/
import proofs.«110531_j12584254177938_2_alg».proof.Proof.Gen.KernelIdeal.Frame

set_option maxRecDepth 16384

noncomputable section

namespace Cert.GcnValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; its result buffer ends at the
    last boundary's contents and its arguments end as launched. -/
theorem run_result : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.GcnValue

end
-- ==== Proof.Spec.lean ====
/-
  The vocabulary the two programs are compared in, on the extended reals, entry by entry.
  A graph convolution layer transforms the node features by a weight matrix, gathers the transformed rows along
  the edges scaled by the edge coefficients, sums them at the edges' destinations, adds the node's own
  transformed row scaled by its self coefficient, and adds the bias. Both programs apply the logistic function
  to that before the next matrix product, and the head is a product, a bias, a maximum with zero, a product and
  a bias.
-/
import Idealize.ShloMosaic.PureOps.Ideal
import Idealize.ShloMosaic.Lib.ValueIdx

set_option maxRecDepth 16384

noncomputable section

namespace Cert.GcnValue

open Idealize.ShloMosaic Idealize.ShloMosaic.ValueIdx

/-- The row-by-column product of a tall matrix with a weight matrix, entry by entry. -/
def rowsTimes (K : Nat) {M N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 ⟨(i 0).val, (i 0).isLt⟩ k) * W (ix2 k ⟨(i 1).val, (i 1).isLt⟩)

/-- A layer's activation: the logistic function of the aggregated rows plus the node's own row times its self
    coefficient (one per row, a column) plus the bias (one per column, a row). -/
def activated {M K : Nat} (A H : (⟨2, ![M, K]⟩ : Shape).Idx → EReal) (S : (⟨2, ![M, 1]⟩ : Shape).Idx → EReal)
    (B : (⟨2, ![1, K]⟩ : Shape).Idx → EReal) : (⟨2, ![M, K]⟩ : Shape).Idx → EReal :=
  fun i => Ideal.logistic (A i + H i * S (ix2 ⟨(i 0).val, (i 0).isLt⟩ (0 : Fin 1)) + B (ix2 (0 : Fin 1) ⟨(i 1).val, (i 1).isLt⟩))

/-- A bias row added to every row. -/
def plusRow {M K : Nat} (Y : (⟨2, ![M, K]⟩ : Shape).Idx → EReal) (B : (⟨2, ![1, K]⟩ : Shape).Idx → EReal) :
    (⟨2, ![M, K]⟩ : Shape).Idx → EReal :=
  fun i => Y i + B (ix2 (0 : Fin 1) ⟨(i 1).val, (i 1).isLt⟩)

/-- The maximum with zero, entry by entry. -/
def positivePart {M K : Nat} (Y : (⟨2, ![M, K]⟩ : Shape).Idx → EReal) : (⟨2, ![M, K]⟩ : Shape).Idx → EReal :=
  fun i => max (Y i) 0

/-- The head after the second layer's activation: product, bias, maximum with zero, product, bias. -/
def head {M : Nat} (X : (⟨2, ![M, 96]⟩ : Shape).Idx → EReal) (W1 : (⟨2, ![96, 384]⟩ : Shape).Idx → EReal)
    (B1 : (⟨2, ![1, 384]⟩ : Shape).Idx → EReal) (W2 : (⟨2, ![384, 40]⟩ : Shape).Idx → EReal)
    (B2 : (⟨2, ![1, 40]⟩ : Shape).Idx → EReal) : (⟨2, ![M, 40]⟩ : Shape).Idx → EReal :=
  plusRow (rowsTimes 384 (positivePart (plusRow (rowsTimes 96 X W1) B1)) W2) B2

end Cert.GcnValue

end
-- ==== Proof.Region0.lean ====
/-
  The first layer's dense transform. The kernel tiles the 50000 rows of the feature matrix into ten blocks
  of 5000 rows; at a block it multiplies the 5000 x 512 block of the features by the whole 512 x 96 weight
  matrix into a zero accumulator. Changes of float format are the identity on the extended reals, so entry
  (r, q) of the array the region leaves is the plain sum over k of X[r, k] * W[k, q]: row r lies in block
  r / 5000, and the block's local row r % 5000 reads row r of X.
-/
import proofs.«110531_j12584254177938_2_alg».proof.Proof.Gen.KernelIdeal.Frame
import proofs.«110531_j12584254177938_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.GcnValue

open Cert.KernelIdeal Cert.KernelIdeal.Gen Idealize.ShloMosaic Idealize.ShloMosaic.TcCoe Idealize.SL.Sem
open Idealize.ShloMosaic.ValueIdx Idealize.ShloMosaic.Pipeline

/-- The all-zero offset of a whole-buffer rectangle. -/
theorem off_zero : (![0, 0] : Fin 2 → Nat) = fun _ => 0 := funext fun a => by fin_cases a <;> rfl

/-! ## The block product at an entry -/

abbrev D0 : DotDims S5000x512 S512x96 S5000x96 := dot_S5000x512_S512x96_S5000x96_1_0_0_1_n_n

theorem D0_lhs0 (i : S5000x96.Idx) (q : D0.contr.Idx) : (D0.lhsIdx i q 0).val = (i 0).val := by
  unfold DotDims.lhsIdx
  rw [dif_neg (show ¬(0 : Fin S5000x512.rank) ∈ D0.lhsBatch by decide), dif_pos (show (0 : Fin S5000x512.rank) ∈ D0.lhsNonContracting by decide)]
  rfl
theorem D0_rhs1 (i : S5000x96.Idx) (q : D0.contr.Idx) : (D0.rhsIdx i q 1).val = (i 1).val := by
  unfold DotDims.rhsIdx
  rw [dif_neg (show ¬(1 : Fin S512x96.rank) ∈ D0.rhsBatch by decide), dif_pos (show (1 : Fin S512x96.rank) ∈ D0.rhsNonContracting by decide)]
  rfl

/-- The block's matrix product into a zero accumulator, at entry (p, q): the sum over the 512 contracted columns. -/
theorem blockProduct0 (l : FVec Ideal S5000x512 .bf16) (r : FVec Ideal S512x96 .bf16) (p : Fin 5000) (q : Fin 96) :
    matmul D0 none l r (constant S5000x96 .f32 0x00000000#32) (ix2 p q) = ∑ k : Fin 512, l (ix2 p k) * r (ix2 k q) := by
  simp only [matmul]
  rw [Ideal.matmul_constant_zero_apply, ← Equiv.sum_comp (contrEquiv1 D0 512 rfl rfl).symm]
  refine Finset.sum_congr rfl fun k _ => ?_
  have hk := contrEquiv1_symm_val D0 512 rfl rfl k
  have el : D0.lhsIdx (ix2 p q) ((contrEquiv1 D0 512 rfl rfl).symm k) = ix2 p k := funext fun a => Fin.ext (by
    match a with
    | ⟨0, _⟩ => exact D0_lhs0 _ _
    | ⟨1, _⟩ => exact (D0.lhsIdx_val_of_single rfl (ix2 p q) _).trans hk)
  have er : D0.rhsIdx (ix2 p q) ((contrEquiv1 D0 512 rfl rfl).symm k) = ix2 k q := funext fun a => Fin.ext (by
    match a with
    | ⟨0, _⟩ => exact (D0.rhsIdx_val_of_single rfl (ix2 p q) _).trans hk
    | ⟨1, _⟩ => exact D0_rhs1 _ _)
  rw [el, er]

/-- What the body stores at a block, entry by entry, from the two blocks it loads. -/
theorem payload0 (x0 : Vec Ideal S5000x512 .f32) (x1 : Vec Ideal S512x96 .bf16) (j : S5000x96.Idx) :
    k0_pay1 x0 x1 j = ∑ k : Fin 512, x0 (ix2 ⟨(j 0).val, (j 0).isLt⟩ k) * x1 (ix2 k ⟨(j 1).val, (j 1).isLt⟩) := by
  obtain ⟨p, q, rfl⟩ : ∃ (p : Fin 5000) (q : Fin 96), j = ix2 p q := ⟨j 0, j 1, eq_ix2 j⟩
  unfold k0_pay1
  rw [shapeCast_self]
  exact blockProduct0 _ _ p q

/-! ## From blocks to the array -/

variable (V : (c : Dev nD) → (b : Ref sig .tc) → Buf (Elt Ideal) ((c : Thread nD τ).loc b))

/-- The printed block index maps, decided over the ten grid points: the feature and result blocks move with
    the point along the rows; the weight block stays. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the feature array with the weight array. -/
theorem flushed0 (c : Dev nD) (t : Fin cfg0.N) :
    (dat0 V c).flushed 2 t = ((cfg0.win 2).blk t).view.read (Elt Ideal)
      (rowsTimes 512 (V c main_arg0) (V c main_v28)) := by
  show (cfg0.win 2).cut (grid0.coords t) ((dat0 V c).after 2 t) = _
  rw [after0_2]
  unfold out0_2
  rw [View.canon_unit_zero off_zero]
  simp only [View.ld_unit_zero (S := S5000x512) off_zero, View.ld_unit_zero (S := S512x96) off_zero]
  obtain ⟨e0, e1, e2, e3, e4, e5⟩ := blockIdx0 t
  funext j
  refine (payload0 (iblk0 V c 0 t) (iblk0 V c 1 t) j).trans ?_
  rw [View.read_apply]
  unfold rowsTimes
  refine Finset.sum_congr rfl fun k _ => ?_
  have h0 : ((cfg0.win 0).blk t).view.emb (ix2 ⟨(j 0).val, (j 0).isLt⟩ k)
      = ix2 ⟨((((cfg0.win 2).blk t).view.emb j) 0).val, ((((cfg0.win 2).blk t).view.emb j) 0).isLt⟩ k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (ix2 k ⟨(j 1).val, (j 1).isLt⟩)
      = ix2 k ⟨((((cfg0.win 2).blk t).view.emb j) 1).val, ((((cfg0.win 2).blk t).view.emb j) 1).isLt⟩ := by
    funext a; apply Fin.ext
    match a with
    | ⟨0, _⟩ => show win0_1.index t (0 : Fin 2) * 512 + 1 * k.val = k.val; omega
    | ⟨1, _⟩ => show win0_1.index t (1 : Fin 2) * 96 + 1 * (j 1).val = win0_2.index t (1 : Fin 2) * 96 + 1 * (j 1).val; omega
  unfold iblk0
  rw [View.read_apply, View.read_apply, h0, h1]
  rfl

/-- An entry of the result array is in point t's block iff its row is among the block's 5000 rows. -/
theorem memBlock0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v32).slice (win0_2.rect t)).set ↔ _
  rw [View.set_slice_whole, Rect.mem_set_unit]
  exact Iff.rfl

/-- Every entry lies in the block of the point numbered by its row divided by 5000. -/
theorem covered0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have hlt : (i 0).val / 5000 < cfg0.N := by show _ < grid0.N; rw [N_0]; omega
  obtain ⟨e0, e1, e2, e3, e4, e5⟩ := blockIdx0 ⟨(i 0).val / 5000, hlt⟩
  refine ⟨⟨(i 0).val / 5000, hlt⟩, flush0_2 _, ?_⟩
  rw [memBlock0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 96 ≤ (i 1).val ∧ (i 1).val < win0_2.index ⟨(i 0).val / 5000, hlt⟩ (1 : Fin 2) * 96 + 96
    rw [e5]; omega

/-- The array the first region leaves: the feature array times the weight array. -/
theorem region0_array (c : Dev nD) :
    (dat0 V c).arrAt 2 cfg0.N = rowsTimes 512 (V c main_arg0) (V c main_v28) :=
  (dat0 V c).arrAt_eq_of_cover 2 _ (fun t _ => flushed0 V c t) covered0

end Cert.GcnValue

end
-- ==== Proof.LibColumns.lean ====
/-
  Two layout facts about a column of values, one per row.
-/
import Idealize.ShloMosaic.Lib.Pipeline.Value
import Idealize.ShloMosaic.Lib.ValueIdx
import Idealize.ShloMosaic.Lib.ValueLayout

set_option maxRecDepth 16384

noncomputable section

namespace Cert.GcnValue

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.GcnValue

end
-- ==== Proof.Region1.lean ====
/-
  The second layer's dense transform, fused with the first layer's epilogue. At a block of 5000 rows the kernel
  adds to the aggregated rows the node's own transformed rows times the node's self coefficient and the bias
  row, applies the logistic function, and multiplies by the whole 96 x 96 weight matrix into a zero accumulator.
  Every step acts row by row, so entry (r, q) of the array the region leaves is the sum over k of the
  activation at (r, k) times W[k, q], with row r read from block r / 5000 at local row r % 5000.
-/
import proofs.«110531_j12584254177938_2_alg».proof.Proof.Gen.KernelIdeal.Frame
import proofs.«110531_j12584254177938_2_alg».proof.Proof.Spec
import proofs.«110531_j12584254177938_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnValue

open Cert.KernelIdeal Cert.KernelIdeal.Gen Idealize.ShloMosaic Idealize.ShloMosaic.TcCoe Idealize.SL.Sem
open Idealize.ShloMosaic.ValueIdx Idealize.ShloMosaic.Pipeline

theorem off_zero1 : (![0, 0] : Fin 2 → Nat) = fun _ => 0 := funext fun a => by fin_cases a <;> rfl

/-! ## The block product at an entry -/

abbrev D1 : DotDims S5000x96 S96x96 S5000x96 := dot_S5000x96_S96x96_S5000x96_1_0_0_1_n_n

theorem D1_lhs0 (i : S5000x96.Idx) (q : D1.contr.Idx) : (D1.lhsIdx i q 0).val = (i 0).val := by
  unfold DotDims.lhsIdx
  rw [dif_neg (show ¬(0 : Fin S5000x96.rank) ∈ D1.lhsBatch by decide), dif_pos (show (0 : Fin S5000x96.rank) ∈ D1.lhsNonContracting by decide)]
  rfl
theorem D1_rhs1 (i : S5000x96.Idx) (q : D1.contr.Idx) : (D1.rhsIdx i q 1).val = (i 1).val := by
  unfold DotDims.rhsIdx
  rw [dif_neg (show ¬(1 : Fin S96x96.rank) ∈ D1.rhsBatch by decide), dif_pos (show (1 : Fin S96x96.rank) ∈ D1.rhsNonContracting by decide)]
  rfl

/-- The block's matrix product into a zero accumulator, at entry (p, q): the sum over the 96 contracted columns. -/
theorem blockProduct1 (l : FVec Ideal S5000x96 .bf16) (r : FVec Ideal S96x96 .bf16) (p : Fin 5000) (q : Fin 96) :
    matmul D1 none l r (constant S5000x96 .f32 0x00000000#32) (ix2 p q) = ∑ k : Fin 96, l (ix2 p k) * r (ix2 k q) := by
  simp only [matmul]
  rw [Ideal.matmul_constant_zero_apply, ← Equiv.sum_comp (contrEquiv1 D1 96 rfl rfl).symm]
  refine Finset.sum_congr rfl fun k _ => ?_
  have hk := contrEquiv1_symm_val D1 96 rfl rfl k
  have el : D1.lhsIdx (ix2 p q) ((contrEquiv1 D1 96 rfl rfl).symm k) = ix2 p k := funext fun a => Fin.ext (by
    match a with
    | ⟨0, _⟩ => exact D1_lhs0 _ _
    | ⟨1, _⟩ => exact (D1.lhsIdx_val_of_single rfl (ix2 p q) _).trans hk)
  have er : D1.rhsIdx (ix2 p q) ((contrEquiv1 D1 96 rfl rfl).symm k) = ix2 k q := funext fun a => Fin.ext (by
    match a with
    | ⟨0, _⟩ => exact (D1.rhsIdx_val_of_single rfl (ix2 p q) _).trans hk
    | ⟨1, _⟩ => exact D1_rhs1 _ _)
  rw [el, er]

/-- What the body stores at a block, entry by entry, from the five blocks it loads: the activation of the block's
    rows times the weight matrix. -/
theorem payload1 (x0 : Vec Ideal S5000x96 .f32) (x1 : Vec Ideal S5000x96 .bf16) (x2 : Vec Ideal S5000x1 .f32)
    (x3 : Vec Ideal S1x96 .f32) (x4 : Vec Ideal S96x96 .bf16) (j : S5000x96.Idx) :
    k1_pay1 x0 x1 x2 x3 x4 j = ∑ k : Fin 96, Ideal.logistic (x0 (ix2 ⟨(j 0).val, (j 0).isLt⟩ k)
        + x1 (ix2 ⟨(j 0).val, (j 0).isLt⟩ k) * x2 (ix2 ⟨(j 0).val, (j 0).isLt⟩ (0 : Fin 1)) + x3 (ix2 (0 : Fin 1) k))
      * x4 (ix2 k ⟨(j 1).val, (j 1).isLt⟩) := by
  obtain ⟨p, q, rfl⟩ : ∃ (p : Fin 5000) (q : Fin 96), j = ix2 p q := ⟨j 0, j 1, eq_ix2 j⟩
  unfold k1_pay1
  rw [shapeCast_self, shapeCast_self, shapeCast_self, shapeCast_self, shapeCast_self]
  refine (blockProduct1 _ _ p q).trans ?_
  refine Finset.sum_congr rfl fun k _ => ?_
  show Ideal.logistic (x0 (ix2 p k) + x1 (ix2 p k) * broadcastTo S5000x96 x2 broadcasts_S5000x1_S5000x96 (ix2 p k)
      + broadcastTo S5000x96 x3 broadcasts_S1x96_S5000x96 (ix2 p k)) * x4 (ix2 k q) = _
  rw [broadcastTo_a1_ab_apply, broadcastTo_1b_ab_apply]

/-! ## From blocks to the array -/

variable (V : (c : Dev nD) → (b : Ref sig .tc) → Buf (Elt Ideal) ((c : Thread nD τ).loc b))

/-- The printed block index maps, decided over the ten grid points: the aggregated, transformed, coefficient and
    result blocks move with the point along the rows; the bias row and the weight matrix stay. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 4000000 in
/-- What point t writes back is block t of the activation of the whole arrays times the weight array. -/
theorem flushed1 (c : Dev nD) (t : Fin cfg1.N) :
    (dat1 V c).flushed 5 t = ((cfg1.win 5).blk t).view.read (Elt Ideal)
      (rowsTimes 96 (activated (V c main_v46) (V c main_v32) (V c main_v27) (V c main_v47)) (V c main_v29)) := by
  show (cfg1.win 5).cut (grid1.coords t) ((dat1 V c).after 5 t) = _
  rw [after1_5]
  unfold out1_5
  rw [View.canon_unit_zero off_zero1]
  simp only [View.ld_unit_zero (S := S5000x96) off_zero1, View.ld_unit_zero (S := S5000x1) off_zero1,
    View.ld_unit_zero (S := S1x96) off_zero1, View.ld_unit_zero (S := S96x96) off_zero1]
  obtain ⟨a0, a1, b0, b1, s0, s1, r0, r1, w0, w1, o0, o1⟩ := blockIdx1 t
  funext j
  refine (payload1 (iblk1 V c 0 t) (iblk1 V c 1 t) (iblk1 V c 2 t) (iblk1 V c 3 t) (iblk1 V c 4 t) j).trans ?_
  rw [View.read_apply]
  unfold rowsTimes
  refine Finset.sum_congr rfl fun k _ => ?_
  unfold activated
  have hA : ((cfg1.win 0).blk t).view.emb (ix2 ⟨(j 0).val, (j 0).isLt⟩ k)
      = ix2 ⟨((((cfg1.win 5).blk t).view.emb j) 0).val, ((((cfg1.win 5).blk t).view.emb j) 0).isLt⟩ k := by
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 96 + 1 * k.val = k.val; omega
  have hH : ((cfg1.win 1).blk t).view.emb (ix2 ⟨(j 0).val, (j 0).isLt⟩ k)
      = ix2 ⟨((((cfg1.win 5).blk t).view.emb j) 0).val, ((((cfg1.win 5).blk t).view.emb j) 0).isLt⟩ k := by
    funext a; apply Fin.ext
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 96 + 1 * k.val = k.val; omega
  have hS : ((cfg1.win 2).blk t).view.emb (ix2 ⟨(j 0).val, (j 0).isLt⟩ (0 : Fin 1))
      = ix2 ⟨((((cfg1.win 5).blk t).view.emb j) 0).val, ((((cfg1.win 5).blk t).view.emb j) 0).isLt⟩ (0 : Fin 1) := by
    funext a; apply Fin.ext
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * 0 = 0; omega
  have hB : ((cfg1.win 3).blk t).view.emb (ix2 (0 : Fin 1) k) = ix2 (0 : Fin 1) k := by
    funext a; apply Fin.ext
    match a with
    | ⟨0, _⟩ => show win1_3.index t (0 : Fin 2) * 1 + 1 * 0 = 0; omega
    | ⟨1, _⟩ => show win1_3.index t (1 : Fin 2) * 96 + 1 * k.val = k.val; omega
  have hW : ((cfg1.win 4).blk t).view.emb (ix2 k ⟨(j 1).val, (j 1).isLt⟩)
      = ix2 k ⟨((((cfg1.win 5).blk t).view.emb j) 1).val, ((((cfg1.win 5).blk t).view.emb j) 1).isLt⟩ := by
    funext a; apply Fin.ext
    match a with
    | ⟨0, _⟩ => show win1_4.index t (0 : Fin 2) * 96 + 1 * k.val = k.val; omega
    | ⟨1, _⟩ => show win1_4.index t (1 : Fin 2) * 96 + 1 * (j 1).val = win1_5.index t (1 : Fin 2) * 96 + 1 * (j 1).val; omega
  unfold iblk1
  rw [View.read_apply, View.read_apply, View.read_apply, View.read_apply, View.read_apply, hA, hH, hS, hB, hW]
  rfl

/-- An entry of the result array is in point t's block iff its row is among the block's 5000 rows. -/
theorem memBlock1 (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v48).slice (win1_5.rect t)).set ↔ _
  rw [View.set_slice_whole, Rect.mem_set_unit]
  exact Iff.rfl

/-- Every entry lies in the block of the point numbered by its row divided by 5000. -/
theorem covered1 (i : S50000x96.Idx) : ∃ t : Fin cfg1.N, (cfg1.win 5).flush t = true ∧ i ∈ ((cfg1.win 5).blk t).view.set := by
  have hi0 : (i 0).val < 50000 := (i 0).isLt
  have hi1 : (i 1).val < 96 := (i 1).isLt
  have hlt : (i 0).val / 5000 < cfg1.N := by show _ < grid1.N; rw [N_1]; omega
  obtain ⟨a0, a1, b0, b1, s0, s1, r0, r1, w0, w1, o0, o1⟩ := blockIdx1 ⟨(i 0).val / 5000, hlt⟩
  refine ⟨⟨(i 0).val / 5000, hlt⟩, flush1_5 _, ?_⟩
  rw [memBlock1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [o0]; show (i 0).val / 5000 * 5000 ≤ (i 0).val ∧ (i 0).val < (i 0).val / 5000 * 5000 + 5000; omega
  | ⟨1, _⟩ =>
    show win1_5.index ⟨(i 0).val / 5000, hlt⟩ (1 : Fin 2) * 96 ≤ (i 1).val ∧ (i 1).val < win1_5.index ⟨(i 0).val / 5000, hlt⟩ (1 : Fin 2) * 96 + 96
    rw [o1]; omega

/-- The array the second region leaves: the activation of the first layer times the second weight array. -/
theorem region1_array (c : Dev nD) :
    (dat1 V c).arrAt 5 cfg1.N
      = rowsTimes 96 (activated (V c main_v46) (V c main_v32) (V c main_v27) (V c main_v47)) (V c main_v29) :=
  (dat1 V c).arrAt_eq_of_cover 5 _ (fun t _ => flushed1 V c t) covered1

end Cert.GcnValue

end
-- ==== Proof.Region2.lean ====
/-
  The second layer's activation followed by the head. The kernel tiles the 50000 rows into ten blocks of 5000
  rows; at a block it adds, to the block of aggregated rows, the block of the node's own transformed rows scaled
  by the self coefficient of each row, adds the bias row, applies the logistic function, multiplies by the whole
  96 x 384 weight matrix into a zero accumulator, adds the bias row, takes the maximum with zero, multiplies by
  the whole 384 x 40 weight matrix into a zero accumulator and adds the last bias row. Changes of float format
  are the identity on the extended reals, so entry (r, q) of the array the region leaves is the head's formula
  at row r: row r lies in block r / 5000, the block's local row r % 5000 reads row r of every row-blocked
  operand, and the weights and bias rows are read whole at every block.
-/
import proofs.«110531_j12584254177938_2_alg».proof.Proof.Gen.KernelIdeal.Frame
import proofs.«110531_j12584254177938_2_alg».proof.Proof.Spec
import proofs.«110531_j12584254177938_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnValue

open Cert.KernelIdeal Cert.KernelIdeal.Gen Idealize.ShloMosaic Idealize.ShloMosaic.TcCoe Idealize.SL.Sem
open Idealize.ShloMosaic.ValueIdx Idealize.ShloMosaic.Pipeline

/-- The all-zero offset of a whole-buffer rectangle. -/
theorem off_zero2 : (![0, 0] : Fin 2 → Nat) = fun _ => 0 := funext fun a => by fin_cases a <;> rfl

/-! ## The two block products at an entry -/

abbrev D2a : DotDims S5000x96 S96x384 S5000x384 := dot_S5000x96_S96x384_S5000x384_1_0_0_1_n_n
abbrev D2b : DotDims S5000x384 S384x40 S5000x40 := dot_S5000x384_S384x40_S5000x40_1_0_0_1_n_n

theorem D2a_lhs0 (i : S5000x384.Idx) (q : D2a.contr.Idx) : (D2a.lhsIdx i q 0).val = (i 0).val := by
  unfold DotDims.lhsIdx
  rw [dif_neg (show ¬(0 : Fin S5000x96.rank) ∈ D2a.lhsBatch by decide), dif_pos (show (0 : Fin S5000x96.rank) ∈ D2a.lhsNonContracting by decide)]
  rfl
theorem D2a_rhs1 (i : S5000x384.Idx) (q : D2a.contr.Idx) : (D2a.rhsIdx i q 1).val = (i 1).val := by
  unfold DotDims.rhsIdx
  rw [dif_neg (show ¬(1 : Fin S96x384.rank) ∈ D2a.rhsBatch by decide), dif_pos (show (1 : Fin S96x384.rank) ∈ D2a.rhsNonContracting by decide)]
  rfl
theorem D2b_lhs0 (i : S5000x40.Idx) (q : D2b.contr.Idx) : (D2b.lhsIdx i q 0).val = (i 0).val := by
  unfold DotDims.lhsIdx
  rw [dif_neg (show ¬(0 : Fin S5000x384.rank) ∈ D2b.lhsBatch by decide), dif_pos (show (0 : Fin S5000x384.rank) ∈ D2b.lhsNonContracting by decide)]
  rfl
theorem D2b_rhs1 (i : S5000x40.Idx) (q : D2b.contr.Idx) : (D2b.rhsIdx i q 1).val = (i 1).val := by
  unfold DotDims.rhsIdx
  rw [dif_neg (show ¬(1 : Fin S384x40.rank) ∈ D2b.rhsBatch by decide), dif_pos (show (1 : Fin S384x40.rank) ∈ D2b.rhsNonContracting by decide)]
  rfl

/-- The first product of the head into a zero accumulator, at entry (p, q): the sum over the 96 contracted columns. -/
theorem blockProduct2a (l : FVec Ideal S5000x96 .bf16) (r : FVec Ideal S96x384 .bf16) (p : Fin 5000) (q : Fin 384) :
    matmul D2a none l r (constant S5000x384 .f32 0x00000000#32) (ix2 p q) = ∑ k : Fin 96, l (ix2 p k) * r (ix2 k q) := by
  simp only [matmul]
  rw [Ideal.matmul_constant_zero_apply, ← Equiv.sum_comp (contrEquiv1 D2a 96 rfl rfl).symm]
  refine Finset.sum_congr rfl fun k _ => ?_
  have hk := contrEquiv1_symm_val D2a 96 rfl rfl k
  have el : D2a.lhsIdx (ix2 p q) ((contrEquiv1 D2a 96 rfl rfl).symm k) = ix2 p k := funext fun a => Fin.ext (by
    match a with
    | ⟨0, _⟩ => exact D2a_lhs0 _ _
    | ⟨1, _⟩ => exact (D2a.lhsIdx_val_of_single rfl (ix2 p q) _).trans hk)
  have er : D2a.rhsIdx (ix2 p q) ((contrEquiv1 D2a 96 rfl rfl).symm k) = ix2 k q := funext fun a => Fin.ext (by
    match a with
    | ⟨0, _⟩ => exact (D2a.rhsIdx_val_of_single rfl (ix2 p q) _).trans hk
    | ⟨1, _⟩ => exact D2a_rhs1 _ _)
  rw [el, er]

/-- The second product of the head into a zero accumulator, at entry (p, q): the sum over the 384 contracted columns. -/
theorem blockProduct2b (l : FVec Ideal S5000x384 .bf16) (r : FVec Ideal S384x40 .bf16) (p : Fin 5000) (q : Fin 40) :
    matmul D2b none l r (constant S5000x40 .f32 0x00000000#32) (ix2 p q) = ∑ k : Fin 384, l (ix2 p k) * r (ix2 k q) := by
  simp only [matmul]
  rw [Ideal.matmul_constant_zero_apply, ← Equiv.sum_comp (contrEquiv1 D2b 384 rfl rfl).symm]
  refine Finset.sum_congr rfl fun k _ => ?_
  have hk := contrEquiv1_symm_val D2b 384 rfl rfl k
  have el : D2b.lhsIdx (ix2 p q) ((contrEquiv1 D2b 384 rfl rfl).symm k) = ix2 p k := funext fun a => Fin.ext (by
    match a with
    | ⟨0, _⟩ => exact D2b_lhs0 _ _
    | ⟨1, _⟩ => exact (D2b.lhsIdx_val_of_single rfl (ix2 p q) _).trans hk)
  have er : D2b.rhsIdx (ix2 p q) ((contrEquiv1 D2b 384 rfl rfl).symm k) = ix2 k q := funext fun a => Fin.ext (by
    match a with
    | ⟨0, _⟩ => exact (D2b.rhsIdx_val_of_single rfl (ix2 p q) _).trans hk
    | ⟨1, _⟩ => exact D2b_rhs1 _ _)
  rw [el, er]

/-- The logistic function of an array reads, at an index, the logistic function of the entry. -/
theorem logistic_apply2 {s : Shape} {φ : FTy} (a : FVec Ideal s φ) (i : s.Idx) : logistic a i = Ideal.logistic (a i) := rfl

/-- What the body stores at a block, entry by entry, from the eight blocks it loads. -/
theorem payload2 (x0 : Vec Ideal S5000x96 .f32) (x1 : Vec Ideal S5000x96 .bf16) (x2 : Vec Ideal S5000x1 .f32)
    (x3 : Vec Ideal S1x96 .f32) (x4 : Vec Ideal S96x384 .bf16) (x5 : Vec Ideal S1x384 .f32)
    (x6 : Vec Ideal S384x40 .bf16) (x7 : Vec Ideal S1x40 .f32) (j : S5000x40.Idx) :
    k2_pay1 x0 x1 x2 x3 x4 x5 x6 x7 j
      = (∑ k : Fin 384, max ((∑ l : Fin 96, Ideal.logistic (x0 (ix2 ⟨(j 0).val, (j 0).isLt⟩ l)
            + x1 (ix2 ⟨(j 0).val, (j 0).isLt⟩ l) * x2 (ix2 ⟨(j 0).val, (j 0).isLt⟩ (0 : Fin 1)) + x3 (ix2 (0 : Fin 1) l)) * x4 (ix2 l k))
          + x5 (ix2 (0 : Fin 1) k)) (Ideal.ofBits .f32 0x00000000#32) * x6 (ix2 k ⟨(j 1).val, (j 1).isLt⟩))
        + x7 (ix2 (0 : Fin 1) ⟨(j 1).val, (j 1).isLt⟩) := by
  obtain ⟨p, q, rfl⟩ : ∃ (p : Fin 5000) (q : Fin 40), j = ix2 p q := ⟨j 0, j 1, eq_ix2 j⟩
  unfold k2_pay1
  simp only [shapeCast_self, addf_apply, mulf_apply, truncf_apply, extf_apply, maximumf_apply, broadcast_apply,
    logistic_apply2, blockProduct2a, blockProduct2b, broadcastTo_1b_ab_apply, broadcastTo_a1_ab_apply]
  rfl

/-! ## From blocks to the array -/

variable (V : (c : Dev nD) → (b : Ref sig .tc) → Buf (Elt Ideal) ((c : Thread nD τ).loc b))

/-- The printed block index maps, decided over the ten grid points: the three row-blocked operands move with the
    point along the rows … -/
theorem blockIdx2a : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- … the first bias row, the first weight matrix and the second bias row stay … -/
theorem blockIdx2b : ∀ t : Fin cfg2.N, win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- … the second weight matrix and the last bias row stay, and the result block moves with the point along the rows. -/
theorem blockIdx2c : ∀ t : Fin cfg2.N, win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

set_option maxHeartbeats 4000000 in
/-- What point t writes back is block t of the head of the second layer's activation. -/
theorem flushed2 (c : Dev nD) (t : Fin cfg2.N) :
    (dat2 V c).flushed 8 t = ((cfg2.win 8).blk t).view.read (Elt Ideal)
      (head (activated (V c main_v62) (V c main_v48) (V c main_v27) (V c main_v63)) (V c main_v30) (V c main_v64)
        (V c main_v31) (V c main_v65)) := by
  show (cfg2.win 8).cut (grid2.coords t) ((dat2 V c).after 8 t) = _
  rw [after2_8]
  unfold out2_8
  rw [View.canon_unit_zero off_zero2]
  simp only [View.ld_unit_zero (S := S5000x96) off_zero2, View.ld_unit_zero (S := S5000x1) off_zero2,
    View.ld_unit_zero (S := S1x96) off_zero2, View.ld_unit_zero (S := S96x384) off_zero2,
    View.ld_unit_zero (S := S1x384) off_zero2, View.ld_unit_zero (S := S384x40) off_zero2,
    View.ld_unit_zero (S := S1x40) off_zero2]
  obtain ⟨e00, e01, e10, e11, e20, e21⟩ := blockIdx2a t
  obtain ⟨e30, e31, e40, e41, e50, e51⟩ := blockIdx2b t
  obtain ⟨e60, e61, e70, e71, e80, e81⟩ := blockIdx2c t
  funext j
  refine (payload2 (iblk2 V c 0 t) (iblk2 V c 1 t) (iblk2 V c 2 t) (iblk2 V c 3 t) (iblk2 V c 4 t) (iblk2 V c 5 t)
    (iblk2 V c 6 t) (iblk2 V c 7 t) j).trans ?_
  rw [View.read_apply]
  unfold head plusRow rowsTimes positivePart activated
  have h0 : ∀ l : Fin 96, ((cfg2.win 0).blk t).view.emb (ix2 ⟨(j 0).val, (j 0).isLt⟩ l)
      = ix2 ⟨((((cfg2.win 8).blk t).view.emb j) 0).val, ((((cfg2.win 8).blk t).view.emb j) 0).isLt⟩ l := by
    intro l; funext a; apply Fin.ext
    match a with
    | ⟨0, _⟩ => show win2_0.index t (0 : Fin 2) * 5000 + 1 * (j 0).val = win2_8.index t (0 : Fin 2) * 5000 + 1 * (j 0).val; omega
    | ⟨1, _⟩ => show win2_0.index t (1 : Fin 2) * 96 + 1 * l.val = l.val; omega
  have h1 : ∀ l : Fin 96, ((cfg2.win 1).blk t).view.emb (ix2 ⟨(j 0).val, (j 0).isLt⟩ l)
      = ix2 ⟨((((cfg2.win 8).blk t).view.emb j) 0).val, ((((cfg2.win 8).blk t).view.emb j) 0).isLt⟩ l := by
    intro l; funext a; apply Fin.ext
    match a with
    | ⟨0, _⟩ => show win2_1.index t (0 : Fin 2) * 5000 + 1 * (j 0).val = win2_8.index t (0 : Fin 2) * 5000 + 1 * (j 0).val; omega
    | ⟨1, _⟩ => show win2_1.index t (1 : Fin 2) * 96 + 1 * l.val = l.val; omega
  have h2 : ((cfg2.win 2).blk t).view.emb (ix2 ⟨(j 0).val, (j 0).isLt⟩ (0 : Fin 1))
      = ix2 ⟨((((cfg2.win 8).blk t).view.emb j) 0).val, ((((cfg2.win 8).blk t).view.emb j) 0).isLt⟩ (0 : Fin 1) := by
    funext a; apply Fin.ext
    match a with
    | ⟨0, _⟩ => show win2_2.index t (0 : Fin 2) * 5000 + 1 * (j 0).val = win2_8.index t (0 : Fin 2) * 5000 + 1 * (j 0).val; omega
    | ⟨1, _⟩ => show win2_2.index t (1 : Fin 2) * 1 + 1 * (0 : Fin 1).val = (0 : Fin 1).val; omega
  have h3 : ∀ l : Fin 96, ((cfg2.win 3).blk t).view.emb (ix2 (0 : Fin 1) l) = ix2 (0 : Fin 1) l := by
    intro l; funext a; apply Fin.ext
    match a with
    | ⟨0, _⟩ => show win2_3.index t (0 : Fin 2) * 1 + 1 * (0 : Fin 1).val = (0 : Fin 1).val; omega
    | ⟨1, _⟩ => show win2_3.index t (1 : Fin 2) * 96 + 1 * l.val = l.val; omega
  have h4 : ∀ (l : Fin 96) (k : Fin 384), ((cfg2.win 4).blk t).view.emb (ix2 l k) = ix2 l k := by
    intro l k; funext a; apply Fin.ext
    match a with
    | ⟨0, _⟩ => show win2_4.index t (0 : Fin 2) * 96 + 1 * l.val = l.val; omega
    | ⟨1, _⟩ => show win2_4.index t (1 : Fin 2) * 384 + 1 * k.val = k.val; omega
  have h5 : ∀ k : Fin 384, ((cfg2.win 5).blk t).view.emb (ix2 (0 : Fin 1) k) = ix2 (0 : Fin 1) k := by
    intro k; funext a; apply Fin.ext
    match a with
    | ⟨0, _⟩ => show win2_5.index t (0 : Fin 2) * 1 + 1 * (0 : Fin 1).val = (0 : Fin 1).val; omega
    | ⟨1, _⟩ => show win2_5.index t (1 : Fin 2) * 384 + 1 * k.val = k.val; omega
  have h6 : ∀ k : Fin 384, ((cfg2.win 6).blk t).view.emb (ix2 k ⟨(j 1).val, (j 1).isLt⟩)
      = ix2 k ⟨((((cfg2.win 8).blk t).view.emb j) 1).val, ((((cfg2.win 8).blk t).view.emb j) 1).isLt⟩ := by
    intro k; funext a; apply Fin.ext
    match a with
    | ⟨0, _⟩ => show win2_6.index t (0 : Fin 2) * 384 + 1 * k.val = k.val; omega
    | ⟨1, _⟩ => show win2_6.index t (1 : Fin 2) * 40 + 1 * (j 1).val = win2_8.index t (1 : Fin 2) * 40 + 1 * (j 1).val; omega
  have h7 : ((cfg2.win 7).blk t).view.emb (ix2 (0 : Fin 1) ⟨(j 1).val, (j 1).isLt⟩)
      = ix2 (0 : Fin 1) ⟨((((cfg2.win 8).blk t).view.emb j) 1).val, ((((cfg2.win 8).blk t).view.emb j) 1).isLt⟩ := by
    funext a; apply Fin.ext
    match a with
    | ⟨0, _⟩ => show win2_7.index t (0 : Fin 2) * 1 + 1 * (0 : Fin 1).val = (0 : Fin 1).val; omega
    | ⟨1, _⟩ => show win2_7.index t (1 : Fin 2) * 40 + 1 * (j 1).val = win2_8.index t (1 : Fin 2) * 40 + 1 * (j 1).val; omega
  unfold iblk2
  simp only [View.read_apply, h0, h1, h2, h3, h4, h5, h6, h7, Ideal.ofBits_zero_f32]
  rfl

/-- An entry of the result array is in point t's block iff its row is among the block's 5000 rows. -/
theorem memBlock2 (t : Fin cfg2.N) (i : S50000x40.Idx) :
    i ∈ ((cfg2.win 8).blk t).view.set ↔ ∀ a : Fin 2, win2_8.index t a * S5000x40.size a ≤ (i a).val ∧ (i a).val < win2_8.index t a * S5000x40.size a + S5000x40.size a := by
  show i ∈ ((View.whole main_v66).slice (win2_8.rect t)).set ↔ _
  rw [View.set_slice_whole, Rect.mem_set_unit]
  exact Iff.rfl

/-- Every entry lies in the block of the point numbered by its row divided by 5000. -/
theorem covered2 (i : S50000x40.Idx) : ∃ t : Fin cfg2.N, (cfg2.win 8).flush t = true ∧ i ∈ ((cfg2.win 8).blk t).view.set := by
  have hi0 : (i 0).val < 50000 := (i 0).isLt
  have hi1 : (i 1).val < 40 := (i 1).isLt
  have hlt : (i 0).val / 5000 < cfg2.N := by show _ < grid2.N; rw [N_2]; omega
  obtain ⟨e60, e61, e70, e71, e80, e81⟩ := blockIdx2c ⟨(i 0).val / 5000, hlt⟩
  refine ⟨⟨(i 0).val / 5000, hlt⟩, flush2_8 _, ?_⟩
  rw [memBlock2]
  intro a
  match a with
  | ⟨0, _⟩ =>
    show win2_8.index ⟨(i 0).val / 5000, hlt⟩ (0 : Fin 2) * 5000 ≤ (i 0).val ∧ (i 0).val < win2_8.index ⟨(i 0).val / 5000, hlt⟩ (0 : Fin 2) * 5000 + 5000
    rw [e80]; show (i 0).val / 5000 * 5000 ≤ (i 0).val ∧ (i 0).val < (i 0).val / 5000 * 5000 + 5000; omega
  | ⟨1, _⟩ =>
    show win2_8.index ⟨(i 0).val / 5000, hlt⟩ (1 : Fin 2) * 40 ≤ (i 1).val ∧ (i 1).val < win2_8.index ⟨(i 0).val / 5000, hlt⟩ (1 : Fin 2) * 40 + 40
    rw [e81]; omega

/-- The array the third region leaves: the head of the second layer's activation. -/
theorem region2_array (c : Dev nD) :
    (dat2 V c).arrAt 8 cfg2.N = head (activated (V c main_v62) (V c main_v48) (V c main_v27) (V c main_v63))
      (V c main_v30) (V c main_v64) (V c main_v31) (V c main_v65) :=
  (dat2 V c).arrAt_eq_of_cover 8 _ (fun t _ => flushed2 V c t) covered2

end Cert.GcnValue

end
-- ==== Proof.Aggregate.lean ====
/-
  The aggregation along the edges, and the whole function both programs compute.
  The edge coefficients, the self coefficients and the edge endpoints depend on the edge index alone; the
  aggregation gathers the rows of a transformed feature array at the edges' sources, scales each by its edge's
  coefficient and sums them at the edges' destinations. The reference program computes the coefficients once per
  layer; the two computations are the same term.
-/
import proofs.«110531_j12584254177938_2_alg».proof.Proof.Gen.ReferenceIdeal.Read
import proofs.«110531_j12584254177938_2_alg».proof.Proof.Spec

set_option maxRecDepth 16384

noncomputable section

namespace Cert.GcnValue

open Cert.ReferenceIdeal Cert.ReferenceIdeal.Read Idealize.ShloMosaic Idealize.ShloMosaic.ValueIdx

/-- The rows of `h` gathered at the edges' sources, scaled by the edge coefficients, summed at the edges' destinations. -/
def aggOf (h : (⟨S50000x96, .f32⟩ : BufTy).Contents (Elt Ideal)) (x1 : (⟨S2x800000, .i32⟩ : BufTy).Contents (Elt Ideal)) :
    (⟨S50000x96, .f32⟩ : BufTy).Contents (Elt Ideal) :=
  Host.scatterAdd (F := Ideal) (φ := .f32) scatter_S50000x96_S800000x1_S800000x96_1_0_0_1 (val_main_v37 (F := Ideal)) (val_main_v38 (F := Ideal) x1)
    (mulf (F := Ideal) (φ := .f32) (Host.gather (α := EReal) gather_S50000x96_S800000x1_S800000x96_1_0_n_n_0_1_196 h (val_main_v32 (F := Ideal) x1)) (val_main_v35 (F := Ideal) x1))

/-- The reference's first aggregation is the aggregation of its first transformed features. -/
theorem ref_agg1 (x0 : (⟨S50000x512, .f32⟩ : BufTy).Contents (Elt Ideal)) (x1 : (⟨S2x800000, .i32⟩ : BufTy).Contents (Elt Ideal))
    (x2 : (⟨S512x96, .f32⟩ : BufTy).Contents (Elt Ideal)) :
    val_main_v39 (F := Ideal) x0 x1 x2 = aggOf (val_main_v4 (F := Ideal) x0 x2) x1 := rfl

/-- The reference's second aggregation, whose coefficients it computes again, is the same aggregation of its second
    transformed features. -/
theorem ref_agg2 (x0 : (⟨S50000x512, .f32⟩ : BufTy).Contents (Elt Ideal)) (x1 : (⟨S2x800000, .i32⟩ : BufTy).Contents (Elt Ideal))
    (x2 : (⟨S512x96, .f32⟩ : BufTy).Contents (Elt Ideal)) (x3 : (⟨S96, .f32⟩ : BufTy).Contents (Elt Ideal))
    (x4 : (⟨S96x96, .f32⟩ : BufTy).Contents (Elt Ideal)) :
    val_main_v89 (F := Ideal) x0 x1 x2 x3 x4 = aggOf (val_main_v54 (F := Ideal) x0 x1 x2 x3 x4) x1 := rfl

/-- The self coefficients the reference computes for the second layer are those of the first. -/
theorem ref_selfcoef (x1 : (⟨S2x800000, .i32⟩ : BufTy).Contents (Elt Ideal)) :
    val_main_v90 (F := Ideal) x1 = val_main_v40 (F := Ideal) x1 := rfl

/-- The self coefficients as a column. -/
def selfCoef (x1 : (⟨S2x800000, .i32⟩ : BufTy).Contents (Elt Ideal)) : (⟨2, ![50000, 1]⟩ : Shape).Idx → EReal :=
  shapeCast ⟨2, ![50000, 1]⟩ (val_main_v40 (F := Ideal) x1) (by decide)

/-- A bias vector as a row. -/
def asRow {n : Nat} (b : (⟨1, ![n]⟩ : Shape).Idx → EReal) (h : (⟨1, ![n]⟩ : Shape).ShapeCasts ⟨2, ![1, n]⟩ := by decide) :
    (⟨2, ![1, n]⟩ : Shape).Idx → EReal := shapeCast ⟨2, ![1, n]⟩ b h

/-- The first layer's transformed features. -/
def transformed1 (x0 : (⟨S50000x512, .f32⟩ : BufTy).Contents (Elt Ideal)) (x2 : (⟨S512x96, .f32⟩ : BufTy).Contents (Elt Ideal)) :
    (⟨S50000x96, .f32⟩ : BufTy).Contents (Elt Ideal) := rowsTimes 512 x0 x2

/-- The second layer's transformed features: the first layer's activation times the second weight matrix. -/
def transformed2 (x0 : (⟨S50000x512, .f32⟩ : BufTy).Contents (Elt Ideal)) (x1 : (⟨S2x800000, .i32⟩ : BufTy).Contents (Elt Ideal))
    (x2 : (⟨S512x96, .f32⟩ : BufTy).Contents (Elt Ideal)) (x3 : (⟨S96, .f32⟩ : BufTy).Contents (Elt Ideal))
    (x4 : (⟨S96x96, .f32⟩ : BufTy).Contents (Elt Ideal)) : (⟨S50000x96, .f32⟩ : BufTy).Contents (Elt Ideal) :=
  rowsTimes 96 (activated (aggOf (transformed1 x0 x2) x1) (transformed1 x0 x2) (selfCoef x1) (asRow x3)) x4

/-- The whole function: the head of the second layer's activation. -/
def result (x0 : (⟨S50000x512, .f32⟩ : BufTy).Contents (Elt Ideal)) (x1 : (⟨S2x800000, .i32⟩ : BufTy).Contents (Elt Ideal))
    (x2 : (⟨S512x96, .f32⟩ : BufTy).Contents (Elt Ideal)) (x3 : (⟨S96, .f32⟩ : BufTy).Contents (Elt Ideal))
    (x4 : (⟨S96x96, .f32⟩ : BufTy).Contents (Elt Ideal)) (x5 : (⟨S96, .f32⟩ : BufTy).Contents (Elt Ideal))
    (x6 : (⟨S96x384, .f32⟩ : BufTy).Contents (Elt Ideal)) (x7 : (⟨S384, .f32⟩ : BufTy).Contents (Elt Ideal))
    (x8 : (⟨S384x40, .f32⟩ : BufTy).Contents (Elt Ideal)) (x9 : (⟨S40, .f32⟩ : BufTy).Contents (Elt Ideal)) :
    (⟨S50000x40, .f32⟩ : BufTy).Contents (Elt Ideal) :=
  head (activated (aggOf (transformed2 x0 x1 x2 x3 x4) x1) (transformed2 x0 x1 x2 x3 x4) (selfCoef x1) (asRow x5))
    x6 (asRow x7) x8 (asRow x9)

end Cert.GcnValue

end
-- ==== Proof.HostChain.lean ====
/-
  The kernel program's buffers at each boundary between its host stretches and its regions, as functions of the
  arguments. The host stretches compute the edge endpoints, the edge and self coefficients and the aggregations
  with the same operations as the reference; changes of float format are the identity on the extended reals; the
  regions leave the arrays the three region modules state.
-/
import proofs.«110531_j12584254177938_2_alg».proof.Proof.Gen.KernelIdeal.Frame
import proofs.«110531_j12584254177938_2_alg».proof.Proof.Region0
import proofs.«110531_j12584254177938_2_alg».proof.Proof.Region1
import proofs.«110531_j12584254177938_2_alg».proof.Proof.Region2
import proofs.«110531_j12584254177938_2_alg».proof.Proof.Aggregate
import Idealize.ShloMosaic.Lib.StableHlo.Run

set_option maxRecDepth 16384

noncomputable section

namespace Cert.GcnValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After the first host stretch -/

theorem w1_arg0 : W1 m ρ c (Proc.devRef .tc main_arg0) = (m ((c : Thread nD τ).loc main_arg0)) := by
  show StableHlo.after hostOps0 (W0 m ρ c) (Proc.devRef .tc main_arg0) = _
  after_results_simp <;> rfl
theorem w1_v28 : W1 m ρ c (Proc.devRef .tc main_v28) = (m ((c : Thread nD τ).loc main_arg2)) := by
  show StableHlo.after hostOps0 (W0 m ρ c) (Proc.devRef .tc main_v28) = _
  after_results_simp <;> rfl
theorem w1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl
theorem w1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl
theorem w1_v25 : W1 m ρ c (Proc.devRef .tc main_v25) = Cert.ReferenceIdeal.Read.val_main_v26 (F := Ideal) (m ((c : Thread nD τ).loc main_arg1)) := by
  show StableHlo.after hostOps0 (W0 m ρ c) (Proc.devRef .tc main_v25) = _
  after_results_simp <;> rfl
theorem w1_v27 : W1 m ρ c (Proc.devRef .tc main_v27) = selfCoef (m ((c : Thread nD τ).loc main_arg1)) := by
  show StableHlo.after hostOps0 (W0 m ρ c) (Proc.devRef .tc main_v27) = _
  after_results_simp <;> rfl
theorem w1_v29 : W1 m ρ c (Proc.devRef .tc main_v29) = (m ((c : Thread nD τ).loc main_arg4)) := by
  show StableHlo.after hostOps0 (W0 m ρ c) (Proc.devRef .tc main_v29) = _
  after_results_simp <;> rfl
theorem w1_v30 : W1 m ρ c (Proc.devRef .tc main_v30) = (m ((c : Thread nD τ).loc main_arg6)) := by
  show StableHlo.after hostOps0 (W0 m ρ c) (Proc.devRef .tc main_v30) = _
  after_results_simp <;> rfl
theorem w1_v31 : W1 m ρ c (Proc.devRef .tc main_v31) = (m ((c : Thread nD τ).loc main_arg8)) := by
  show StableHlo.after hostOps0 (W0 m ρ c) (Proc.devRef .tc main_v31) = _
  after_results_simp <;> rfl
theorem w1_arg3 : W1 m ρ c (Proc.devRef .tc main_arg3) = (m ((c : Thread nD τ).loc main_arg3)) := by
  show StableHlo.after hostOps0 (W0 m ρ c) (Proc.devRef .tc main_arg3) = _
  after_results_simp <;> rfl
theorem w1_arg5 : W1 m ρ c (Proc.devRef .tc main_arg5) = (m ((c : Thread nD τ).loc main_arg5)) := by
  show StableHlo.after hostOps0 (W0 m ρ c) (Proc.devRef .tc main_arg5) = _
  after_results_simp <;> rfl
theorem w1_arg7 : W1 m ρ c (Proc.devRef .tc main_arg7) = (m ((c : Thread nD τ).loc main_arg7)) := by
  show StableHlo.after hostOps0 (W0 m ρ c) (Proc.devRef .tc main_arg7) = _
  after_results_simp <;> rfl
theorem w1_arg9 : W1 m ρ c (Proc.devRef .tc main_arg9) = (m ((c : Thread nD τ).loc main_arg9)) := by
  show StableHlo.after hostOps0 (W0 m ρ c) (Proc.devRef .tc main_arg9) = _
  after_results_simp <;> rfl

/-! ## After the first region -/

theorem w2_v1 : W2 m ρ c (Proc.devRef .tc main_v1) = Cert.ReferenceIdeal.Read.val_main_v1 (F := Ideal) (m ((c : Thread nD τ).loc main_arg1)) :=
  (W2_of_ne m ρ c main_v1 (by decide)).trans (w1_v1 m ρ c)
theorem w2_v3 : W2 m ρ c (Proc.devRef .tc main_v3) = Cert.ReferenceIdeal.Read.val_main_v3 (F := Ideal) (m ((c : Thread nD τ).loc main_arg1)) :=
  (W2_of_ne m ρ c main_v3 (by decide)).trans (w1_v3 m ρ c)
theorem w2_v25 : W2 m ρ c (Proc.devRef .tc main_v25) = Cert.ReferenceIdeal.Read.val_main_v26 (F := Ideal) (m ((c : Thread nD τ).loc main_arg1)) :=
  (W2_of_ne m ρ c main_v25 (by decide)).trans (w1_v25 m ρ c)
theorem w2_v27 : W2 m ρ c (Proc.devRef .tc main_v27) = selfCoef (m ((c : Thread nD τ).loc main_arg1)) :=
  (W2_of_ne m ρ c main_v27 (by decide)).trans (w1_v27 m ρ c)
theorem w2_v29 : W2 m ρ c (Proc.devRef .tc main_v29) = (m ((c : Thread nD τ).loc main_arg4)) :=
  (W2_of_ne m ρ c main_v29 (by decide)).trans (w1_v29 m ρ c)
theorem w2_v30 : W2 m ρ c (Proc.devRef .tc main_v30) = (m ((c : Thread nD τ).loc main_arg6)) :=
  (W2_of_ne m ρ c main_v30 (by decide)).trans (w1_v30 m ρ c)
theorem w2_v31 : W2 m ρ c (Proc.devRef .tc main_v31) = (m ((c : Thread nD τ).loc main_arg8)) :=
  (W2_of_ne m ρ c main_v31 (by decide)).trans (w1_v31 m ρ c)
theorem w2_arg3 : W2 m ρ c (Proc.devRef .tc main_arg3) = (m ((c : Thread nD τ).loc main_arg3)) :=
  (W2_of_ne m ρ c main_arg3 (by decide)).trans (w1_arg3 m ρ c)
theorem w2_arg5 : W2 m ρ c (Proc.devRef .tc main_arg5) = (m ((c : Thread nD τ).loc main_arg5)) :=
  (W2_of_ne m ρ c main_arg5 (by decide)).trans (w1_arg5 m ρ c)
theorem w2_arg7 : W2 m ρ c (Proc.devRef .tc main_arg7) = (m ((c : Thread nD τ).loc main_arg7)) :=
  (W2_of_ne m ρ c main_arg7 (by decide)).trans (w1_arg7 m ρ c)
theorem w2_arg9 : W2 m ρ c (Proc.devRef .tc main_arg9) = (m ((c : Thread nD τ).loc main_arg9)) :=
  (W2_of_ne m ρ c main_arg9 (by decide)).trans (w1_arg9 m ρ c)
theorem w2_v32 : W2 m ρ c (Proc.devRef .tc main_v32) = transformed1 (m ((c : Thread nD τ).loc main_arg0)) (m ((c : Thread nD τ).loc main_arg2)) := by
  refine (W2_arr m ρ c 2).trans ((region0_array (V1 m ρ) c).trans ?_)
  show rowsTimes 512 (W1 m ρ c (Proc.devRef .tc main_arg0)) (W1 m ρ c (Proc.devRef .tc main_v28)) = _
  rw [w1_arg0 m ρ c, w1_v28 m ρ c]
  rfl

/-! ## After the second host stretch -/

theorem w3_v32 : W3 m ρ c (Proc.devRef .tc main_v32) = transformed1 (m ((c : Thread nD τ).loc main_arg0)) (m ((c : Thread nD τ).loc main_arg2)) := by
  show StableHlo.after hostOps1 (W2 m ρ c) (Proc.devRef .tc main_v32) = _
  after_results_simp
  exact w2_v32 m ρ c
theorem w3_v27 : W3 m ρ c (Proc.devRef .tc main_v27) = selfCoef (m ((c : Thread nD τ).loc main_arg1)) := by
  show StableHlo.after hostOps1 (W2 m ρ c) (Proc.devRef .tc main_v27) = _
  after_results_simp
  exact w2_v27 m ρ c
theorem w3_v29 : W3 m ρ c (Proc.devRef .tc main_v29) = (m ((c : Thread nD τ).loc main_arg4)) := by
  show StableHlo.after hostOps1 (W2 m ρ c) (Proc.devRef .tc main_v29) = _
  after_results_simp
  exact w2_v29 m ρ c
theorem w3_v1 : W3 m ρ c (Proc.devRef .tc main_v1) = Cert.ReferenceIdeal.Read.val_main_v1 (F := Ideal) (m ((c : Thread nD τ).loc main_arg1)) := by
  show StableHlo.after hostOps1 (W2 m ρ c) (Proc.devRef .tc main_v1) = _
  after_results_simp
  exact w2_v1 m ρ c
theorem w3_v3 : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  after_results_simp
  exact w2_v3 m ρ c
theorem w3_v25 : W3 m ρ c (Proc.devRef .tc main_v25) = Cert.ReferenceIdeal.Read.val_main_v26 (F := Ideal) (m ((c : Thread nD τ).loc main_arg1)) := by
  show StableHlo.after hostOps1 (W2 m ρ c) (Proc.devRef .tc main_v25) = _
  after_results_simp
  exact w2_v25 m ρ c
theorem w3_v30 : W3 m ρ c (Proc.devRef .tc main_v30) = (m ((c : Thread nD τ).loc main_arg6)) := by
  show StableHlo.after hostOps1 (W2 m ρ c) (Proc.devRef .tc main_v30) = _
  after_results_simp
  exact w2_v30 m ρ c
theorem w3_v31 : W3 m ρ c (Proc.devRef .tc main_v31) = (m ((c : Thread nD τ).loc main_arg8)) := by
  show StableHlo.after hostOps1 (W2 m ρ c) (Proc.devRef .tc main_v31) = _
  after_results_simp
  exact w2_v31 m ρ c
theorem w3_arg5 : W3 m ρ c (Proc.devRef .tc main_arg5) = (m ((c : Thread nD τ).loc main_arg5)) := by
  show StableHlo.after hostOps1 (W2 m ρ c) (Proc.devRef .tc main_arg5) = _
  after_results_simp
  exact w2_arg5 m ρ c
theorem w3_arg7 : W3 m ρ c (Proc.devRef .tc main_arg7) = (m ((c : Thread nD τ).loc main_arg7)) := by
  show StableHlo.after hostOps1 (W2 m ρ c) (Proc.devRef .tc main_arg7) = _
  after_results_simp
  exact w2_arg7 m ρ c
theorem w3_arg9 : W3 m ρ c (Proc.devRef .tc main_arg9) = (m ((c : Thread nD τ).loc main_arg9)) := by
  show StableHlo.after hostOps1 (W2 m ρ c) (Proc.devRef .tc main_arg9) = _
  after_results_simp
  exact w2_arg9 m ρ c
theorem w3_v47 : W3 m ρ c (Proc.devRef .tc main_v47) = asRow (m ((c : Thread nD τ).loc main_arg3)) := by
  show StableHlo.after hostOps1 (W2 m ρ c) (Proc.devRef .tc main_v47) = _
  after_results_simp
  rw [w2_arg3 m ρ c]
  rfl
theorem w3_v46 : W3 m ρ c (Proc.devRef .tc main_v46) = aggOf (transformed1 (m ((c : Thread nD τ).loc main_arg0)) (m ((c : Thread nD τ).loc main_arg2))) (m ((c : Thread nD τ).loc main_arg1)) := by
  show StableHlo.after hostOps1 (W2 m ρ c) (Proc.devRef .tc main_v46) = _
  after_results_simp
  rw [w2_v32 m ρ c, w2_v1 m ρ c, w2_v3 m ρ c, w2_v25 m ρ c]
  rfl

/-! ## After the second region -/

theorem w4_v1 : W4 m ρ c (Proc.devRef .tc main_v1) = Cert.ReferenceIdeal.Read.val_main_v1 (F := Ideal) (m ((c : Thread nD τ).loc main_arg1)) :=
  (W4_of_ne m ρ c main_v1 (by decide)).trans (w3_v1 m ρ c)
theorem w4_v3 : W4 m ρ c (Proc.devRef .tc main_v3) = Cert.ReferenceIdeal.Read.val_main_v3 (F := Ideal) (m ((c : Thread nD τ).loc main_arg1)) :=
  (W4_of_ne m ρ c main_v3 (by decide)).trans (w3_v3 m ρ c)
theorem w4_v25 : W4 m ρ c (Proc.devRef .tc main_v25) = Cert.ReferenceIdeal.Read.val_main_v26 (F := Ideal) (m ((c : Thread nD τ).loc main_arg1)) :=
  (W4_of_ne m ρ c main_v25 (by decide)).trans (w3_v25 m ρ c)
theorem w4_v27 : W4 m ρ c (Proc.devRef .tc main_v27) = selfCoef (m ((c : Thread nD τ).loc main_arg1)) :=
  (W4_arr m ρ c 2).trans (((dat1 (V3 m ρ) c).arrAt_in 2 rfl _).trans ((A_eq1 (V3 m ρ) c 2).trans (w3_v27 m ρ c)))
theorem w4_v30 : W4 m ρ c (Proc.devRef .tc main_v30) = (m ((c : Thread nD τ).loc main_arg6)) :=
  (W4_of_ne m ρ c main_v30 (by decide)).trans (w3_v30 m ρ c)
theorem w4_v31 : W4 m ρ c (Proc.devRef .tc main_v31) = (m ((c : Thread nD τ).loc main_arg8)) :=
  (W4_of_ne m ρ c main_v31 (by decide)).trans (w3_v31 m ρ c)
theorem w4_arg5 : W4 m ρ c (Proc.devRef .tc main_arg5) = (m ((c : Thread nD τ).loc main_arg5)) :=
  (W4_of_ne m ρ c main_arg5 (by decide)).trans (w3_arg5 m ρ c)
theorem w4_arg7 : W4 m ρ c (Proc.devRef .tc main_arg7) = (m ((c : Thread nD τ).loc main_arg7)) :=
  (W4_of_ne m ρ c main_arg7 (by decide)).trans (w3_arg7 m ρ c)
theorem w4_arg9 : W4 m ρ c (Proc.devRef .tc main_arg9) = (m ((c : Thread nD τ).loc main_arg9)) :=
  (W4_of_ne m ρ c main_arg9 (by decide)).trans (w3_arg9 m ρ c)
theorem w4_v48 : W4 m ρ c (Proc.devRef .tc main_v48) = transformed2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((region1_array (V3 m ρ) c).trans ?_)
  show rowsTimes 96 (activated (W3 m ρ c (Proc.devRef .tc main_v46)) (W3 m ρ c (Proc.devRef .tc main_v32))
    (W3 m ρ c (Proc.devRef .tc main_v27)) (W3 m ρ c (Proc.devRef .tc main_v47))) (W3 m ρ c (Proc.devRef .tc main_v29)) = _
  rw [w3_v46 m ρ c, w3_v32 m ρ c, w3_v27 m ρ c, w3_v47 m ρ c, w3_v29 m ρ c]
  rfl

/-! ## After the third host stretch -/

theorem w5_v48 : W5 m ρ c (Proc.devRef .tc main_v48) = transformed2 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v48) = _
  after_results_simp
  exact w4_v48 m ρ c
theorem w5_v27 : W5 m ρ c (Proc.devRef .tc main_v27) = selfCoef (m ((c : Thread nD τ).loc main_arg1)) := by
  show StableHlo.after hostOps2 (W4 m ρ c) (Proc.devRef .tc main_v27) = _
  after_results_simp
  exact w4_v27 m ρ c
theorem w5_v30 : W5 m ρ c (Proc.devRef .tc main_v30) = (m ((c : Thread nD τ).loc main_arg6)) := by
  show StableHlo.after hostOps2 (W4 m ρ c) (Proc.devRef .tc main_v30) = _
  after_results_simp
  exact w4_v30 m ρ c
theorem w5_v31 : W5 m ρ c (Proc.devRef .tc main_v31) = (m ((c : Thread nD τ).loc main_arg8)) := by
  show StableHlo.after hostOps2 (W4 m ρ c) (Proc.devRef .tc main_v31) = _
  after_results_simp
  exact w4_v31 m ρ c
theorem w5_v63 : W5 m ρ c (Proc.devRef .tc main_v63) = asRow (m ((c : Thread nD τ).loc main_arg5)) := by
  show StableHlo.after hostOps2 (W4 m ρ c) (Proc.devRef .tc main_v63) = _
  after_results_simp
  rw [w4_arg5 m ρ c]
  rfl
theorem w5_v64 : W5 m ρ c (Proc.devRef .tc main_v64) = asRow (m ((c : Thread nD τ).loc main_arg7)) := by
  show StableHlo.after hostOps2 (W4 m ρ c) (Proc.devRef .tc main_v64) = _
  after_results_simp
  rw [w4_arg7 m ρ c]
  rfl
theorem w5_v65 : W5 m ρ c (Proc.devRef .tc main_v65) = asRow (m ((c : Thread nD τ).loc main_arg9)) := by
  show StableHlo.after hostOps2 (W4 m ρ c) (Proc.devRef .tc main_v65) = _
  after_results_simp
  rw [w4_arg9 m ρ c]
  rfl
theorem w5_v62 : W5 m ρ c (Proc.devRef .tc main_v62) = aggOf (transformed2 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps2 (W4 m ρ c) (Proc.devRef .tc main_v62) = _
  after_results_simp
  rw [w4_v48 m ρ c, w4_v1 m ρ c, w4_v3 m ρ c, w4_v25 m ρ c]
  rfl

/-! ## After the third region: the result -/

/-- The kernel program's result buffer ends at the whole function of the arguments. -/
theorem kernel_result : W6 m ρ c (Proc.devRef .tc main_v66) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 8).trans ((region2_array (V5 m ρ) c).trans ?_)
  show head (activated (W5 m ρ c (Proc.devRef .tc main_v62)) (W5 m ρ c (Proc.devRef .tc main_v48))
    (W5 m ρ c (Proc.devRef .tc main_v27)) (W5 m ρ c (Proc.devRef .tc main_v63))) (W5 m ρ c (Proc.devRef .tc main_v30))
    (W5 m ρ c (Proc.devRef .tc main_v64)) (W5 m ρ c (Proc.devRef .tc main_v31)) (W5 m ρ c (Proc.devRef .tc main_v65)) = _
  rw [w5_v62 m ρ c, w5_v48 m ρ c, w5_v27 m ρ c, w5_v63 m ρ c, w5_v30 m ρ c, w5_v64 m ρ c, w5_v31 m ρ c, w5_v65 m ρ c]
  rfl

end Cert.GcnValue

end
-- ==== Proof.Reference.lean ====
/-
  The reference program read in the vocabulary of the comparison. Its first matrix product is the feature
  array times the first weight array. Between the first and the second product it adds to the aggregated
  rows the node's own row times its self coefficient and the bias row, and applies 1 / (1 + exp (-x)), which
  is the logistic function; the second product multiplies that by the second weight array. After the second
  layer's activation come a product, a bias row, the maximum with zero, a product and a bias row.
-/
import proofs.«110531_j12584254177938_2_alg».proof.Proof.Gen.ReferenceIdeal.Read
import proofs.«110531_j12584254177938_2_alg».proof.Proof.Spec
import proofs.«110531_j12584254177938_2_alg».proof.Proof.LibColumns
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.GcnValue

open Cert.ReferenceIdeal Cert.ReferenceIdeal.Read Idealize.ShloMosaic Idealize.ShloMosaic.ValueIdx

/-- The single-precision pattern of one denotes one. -/
theorem ofBits_one_f32 : Ideal.ofBits .f32 0x3F800000#32 = 1 := by
  simp [Ideal.ofBits, Ideal.ieee, -EReal.coe_mul]; norm_num

/-- The first product: the feature array times the first weight array. -/
theorem ref_transform1 (x0 : (⟨S50000x512, .f32⟩ : BufTy).Contents (Elt Ideal)) (x2 : (⟨S512x96, .f32⟩ : BufTy).Contents (Elt Ideal)) :
    val_main_v4 (F := Ideal) x0 x2 = rowsTimes 512 x0 x2 := by
  funext i
  rw [val_main_v4_apply]
  unfold rowsTimes
  refine Finset.sum_congr rfl fun k _ => ?_
  have el : lidx_main_v4 i k = ix2 ⟨(i 0).val, (i 0).isLt⟩ k := funext fun a => Fin.ext (by
    match a with
    | ⟨0, _⟩ => rfl
    | ⟨1, _⟩ => rfl)
  have er : ridx_main_v4 i k = ix2 k ⟨(i 1).val, (i 1).isLt⟩ := funext fun a => Fin.ext (by
    match a with
    | ⟨0, _⟩ => rfl
    | ⟨1, _⟩ => rfl)
  rw [el, er]
  rfl

/-- The first layer's activation: the reference spells the logistic function as one over one plus the exponential of the negation. -/
theorem ref_activation1 (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal))
    (h1 : (⟨1, ![50000]⟩ : Shape).ShapeCasts ⟨2, ![50000, 1]⟩) (h2 : (⟨1, ![96]⟩ : Shape).ShapeCasts ⟨2, ![1, 96]⟩) :
    val_main_v53 (F := Ideal) x0 x1 x2 x3 = activated (val_main_v39 (F := Ideal) x0 x1 x2) (val_main_v4 (F := Ideal) x0 x2)
      (shapeCast ⟨2, ![50000, 1]⟩ (val_main_v40 (F := Ideal) x1) h1) (shapeCast ⟨2, ![1, 96]⟩ x3 h2) := by
  funext i
  rw [val_main_v53_apply, val_main_v52_apply, val_main_cst_9_apply, val_main_v51_apply, val_main_v50_apply, val_main_cst_8_apply, val_main_v49_apply,
    val_main_v48_apply, val_main_v47_apply, val_main_v44_apply, val_main_v43_apply, val_main_v42_apply, val_main_v41_apply, val_main_v46_apply,
    val_main_v45_apply]
  unfold activated
  rw [shapeCast_a_a1_apply, shapeCast_a_1a_apply]
  have e1 : idx_main_v41 (idx_main_v42 i) = ix1 ⟨(i 0).val, (i 0).isLt⟩ := funext fun a => Fin.ext (by
    match a with
    | ⟨0, _⟩ => rfl)
  have e2 : idx_main_v45 (idx_main_v46 i) = ix1 ⟨(i 1).val, (i 1).isLt⟩ := funext fun a => Fin.ext (by
    match a with
    | ⟨0, _⟩ => rfl)
  rw [e1, e2]
  simp only [Ideal.hostDivf_def, Ideal.addf_def, Ideal.mulf_def, Ideal.hostUnary_exp_def, Ideal.hostNegf_def, Ideal.negf_def,
    Ideal.ofBits_def, ofBits_one_f32]
  rfl

/-- The second product: the first layer's activation times the second weight array. -/
theorem ref_transform2 (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) :
    val_main_v54 (F := Ideal) x0 x1 x2 x3 x4 = rowsTimes 96 (activated (val_main_v39 (F := Ideal) x0 x1 x2) (val_main_v4 (F := Ideal) x0 x2)
      (shapeCast ⟨2, ![50000, 1]⟩ (val_main_v40 (F := Ideal) x1) (by decide)) (shapeCast ⟨2, ![1, 96]⟩ x3 (by decide))) x4 := by
  rw [← ref_activation1 x0 x1 x2 x3 (by decide) (by decide)]
  funext i
  rw [val_main_v54_apply]
  unfold rowsTimes
  refine Finset.sum_congr rfl fun k _ => ?_
  have el : lidx_main_v54 i k = ix2 ⟨(i 0).val, (i 0).isLt⟩ k := funext fun a => Fin.ext (by
    match a with
    | ⟨0, _⟩ => rfl
    | ⟨1, _⟩ => rfl)
  have er : ridx_main_v54 i k = ix2 k ⟨(i 1).val, (i 1).isLt⟩ := funext fun a => Fin.ext (by
    match a with
    | ⟨0, _⟩ => rfl
    | ⟨1, _⟩ => rfl)
  rw [el, er]
  rfl

/-- The second layer's activation, the same expression over the second layer's arrays. -/
theorem ref_activation2 (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal))
    (h1 : (⟨1, ![50000]⟩ : Shape).ShapeCasts ⟨2, ![50000, 1]⟩) (h2 : (⟨1, ![96]⟩ : Shape).ShapeCasts ⟨2, ![1, 96]⟩) :
    val_main_v103 (F := Ideal) x0 x1 x2 x3 x4 x5 = activated (val_main_v89 (F := Ideal) x0 x1 x2 x3 x4) (val_main_v54 (F := Ideal) x0 x1 x2 x3 x4)
      (shapeCast ⟨2, ![50000, 1]⟩ (val_main_v90 (F := Ideal) x1) h1) (shapeCast ⟨2, ![1, 96]⟩ x5 h2) := by
  funext i
  rw [val_main_v103_apply, val_main_v102_apply, val_main_cst_21_apply, val_main_v101_apply, val_main_v100_apply, val_main_cst_20_apply, val_main_v99_apply,
    val_main_v98_apply, val_main_v97_apply, val_main_v94_apply, val_main_v93_apply, val_main_v92_apply, val_main_v91_apply, val_main_v96_apply,
    val_main_v95_apply]
  unfold activated
  rw [shapeCast_a_a1_apply, shapeCast_a_1a_apply]
  have e1 : idx_main_v91 (idx_main_v92 i) = ix1 ⟨(i 0).val, (i 0).isLt⟩ := funext fun a => Fin.ext (by
    match a with
    | ⟨0, _⟩ => rfl)
  have e2 : idx_main_v95 (idx_main_v96 i) = ix1 ⟨(i 1).val, (i 1).isLt⟩ := funext fun a => Fin.ext (by
    match a with
    | ⟨0, _⟩ => rfl)
  rw [e1, e2]
  simp only [Ideal.hostDivf_def, Ideal.addf_def, Ideal.mulf_def, Ideal.hostUnary_exp_def, Ideal.hostNegf_def, Ideal.negf_def,
    Ideal.ofBits_def, ofBits_one_f32]
  rfl

/-- The head's first product: the second layer's activation times the third weight array. -/
theorem ref_hidden (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x384, .f32⟩ : BufTy).Contents (Elt Ideal)) :
    val_main_v104 (F := Ideal) x0 x1 x2 x3 x4 x5 x6 = rowsTimes 96 (val_main_v103 (F := Ideal) x0 x1 x2 x3 x4 x5) x6 := by
  funext i
  rw [val_main_v104_apply]
  unfold rowsTimes
  refine Finset.sum_congr rfl fun k _ => ?_
  have el : lidx_main_v104 i k = ix2 ⟨(i 0).val, (i 0).isLt⟩ k := funext fun a => Fin.ext (by
    match a with
    | ⟨0, _⟩ => rfl
    | ⟨1, _⟩ => rfl)
  have er : ridx_main_v104 i k = ix2 k ⟨(i 1).val, (i 1).isLt⟩ := funext fun a => Fin.ext (by
    match a with
    | ⟨0, _⟩ => rfl
    | ⟨1, _⟩ => rfl)
  rw [el, er]
  rfl

/-- The head's first bias row, added to every row. -/
theorem ref_hidden_bias (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x384, .f32⟩ : BufTy).Contents (Elt Ideal)) (x7 : (⟨S384, .f32⟩ : BufTy).Contents (Elt Ideal)) (h : (⟨1, ![384]⟩ : Shape).ShapeCasts ⟨2, ![1, 384]⟩) :
    val_main_v107 (F := Ideal) x0 x1 x2 x3 x4 x5 x6 x7 = plusRow (val_main_v104 (F := Ideal) x0 x1 x2 x3 x4 x5 x6) (shapeCast ⟨2, ![1, 384]⟩ x7 h) := by
  funext i
  rw [val_main_v107_apply, val_main_v106_apply, val_main_v105_apply]
  unfold plusRow
  rw [shapeCast_a_1a_apply]
  have e : idx_main_v105 (idx_main_v106 i) = ix1 ⟨(i 1).val, (i 1).isLt⟩ := funext fun a => Fin.ext (by
    match a with
    | ⟨0, _⟩ => rfl)
  rw [e]
  rfl

/-- The maximum with the broadcast zero constant is the maximum with zero. -/
theorem ref_relu (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x384, .f32⟩ : BufTy).Contents (Elt Ideal)) (x7 : (⟨S384, .f32⟩ : BufTy).Contents (Elt Ideal)) :
    val_main_v108 (F := Ideal) x0 x1 x2 x3 x4 x5 x6 x7 = positivePart (val_main_v107 (F := Ideal) x0 x1 x2 x3 x4 x5 x6 x7) := by
  funext i
  rw [val_main_v108_apply, val_main_call0_v0_apply, val_main_call0_cst_apply]
  unfold positivePart
  simp only [Ideal.maximumf_def, Ideal.ofBits_def, Ideal.ofBits_zero_f32]

/-- The head's second product. -/
theorem ref_out (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x384, .f32⟩ : BufTy).Contents (Elt Ideal)) (x7 : (⟨S384, .f32⟩ : BufTy).Contents (Elt Ideal)) (x8 : (⟨S384x40, .f32⟩ : BufTy).Contents (Elt Ideal)) :
    val_main_v109 (F := Ideal) x0 x1 x2 x3 x4 x5 x6 x7 x8 = rowsTimes 384 (val_main_v108 (F := Ideal) x0 x1 x2 x3 x4 x5 x6 x7) x8 := by
  funext i
  rw [val_main_v109_apply]
  unfold rowsTimes
  refine Finset.sum_congr rfl fun k _ => ?_
  have el : lidx_main_v109 i k = ix2 ⟨(i 0).val, (i 0).isLt⟩ k := funext fun a => Fin.ext (by
    match a with
    | ⟨0, _⟩ => rfl
    | ⟨1, _⟩ => rfl)
  have er : ridx_main_v109 i k = ix2 k ⟨(i 1).val, (i 1).isLt⟩ := funext fun a => Fin.ext (by
    match a with
    | ⟨0, _⟩ => rfl
    | ⟨1, _⟩ => rfl)
  rw [el, er]
  rfl

/-- The head's second bias row, added to every row. -/
theorem ref_out_bias (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x384, .f32⟩ : BufTy).Contents (Elt Ideal)) (x7 : (⟨S384, .f32⟩ : BufTy).Contents (Elt Ideal)) (x8 : (⟨S384x40, .f32⟩ : BufTy).Contents (Elt Ideal)) (x9 : (⟨S40, .f32⟩ : BufTy).Contents (Elt Ideal)) (h : (⟨1, ![40]⟩ : Shape).ShapeCasts ⟨2, ![1, 40]⟩) :
    val_main_v112 (F := Ideal) x0 x1 x2 x3 x4 x5 x6 x7 x8 x9 = plusRow (val_main_v109 (F := Ideal) x0 x1 x2 x3 x4 x5 x6 x7 x8) (shapeCast ⟨2, ![1, 40]⟩ x9 h) := by
  funext i
  rw [val_main_v112_apply, val_main_v111_apply, val_main_v110_apply]
  unfold plusRow
  rw [shapeCast_a_1a_apply]
  have e : idx_main_v110 (idx_main_v111 i) = ix1 ⟨(i 1).val, (i 1).isLt⟩ := funext fun a => Fin.ext (by
    match a with
    | ⟨0, _⟩ => rfl)
  rw [e]
  rfl

/-- The reference's result: the head applied to the second layer's activation. -/
theorem ref_result (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x384, .f32⟩ : BufTy).Contents (Elt Ideal)) (x7 : (⟨S384, .f32⟩ : BufTy).Contents (Elt Ideal)) (x8 : (⟨S384x40, .f32⟩ : BufTy).Contents (Elt Ideal)) (x9 : (⟨S40, .f32⟩ : BufTy).Contents (Elt Ideal)) :
    val_main_v112 (F := Ideal) x0 x1 x2 x3 x4 x5 x6 x7 x8 x9 = head (activated (val_main_v89 (F := Ideal) x0 x1 x2 x3 x4) (val_main_v54 (F := Ideal) x0 x1 x2 x3 x4)
      (shapeCast ⟨2, ![50000, 1]⟩ (val_main_v90 (F := Ideal) x1) (by decide)) (shapeCast ⟨2, ![1, 96]⟩ x5 (by decide)))
      x6 (shapeCast ⟨2, ![1, 384]⟩ x7 (by decide)) x8 (shapeCast ⟨2, ![1, 40]⟩ x9 (by decide)) := by
  unfold head
  rw [ref_out_bias x0 x1 x2 x3 x4 x5 x6 x7 x8 x9 (by decide), ref_out x0 x1 x2 x3 x4 x5 x6 x7 x8, ref_relu x0 x1 x2 x3 x4 x5 x6 x7, ref_hidden_bias x0 x1 x2 x3 x4 x5 x6 x7 (by decide),
    ref_hidden x0 x1 x2 x3 x4 x5 x6, ref_activation2 x0 x1 x2 x3 x4 x5 (by decide) (by decide)]

end Cert.GcnValue

end
-- ==== Proof.Bridge.lean ====
/-
  The reference program's result in the vocabulary of the comparison: the head of the second layer's
  activation, where each layer aggregates its transformed features along the edges, and the second layer's
  coefficients, which the reference computes again, are the first layer's.
-/
import proofs.«110531_j12584254177938_2_alg».proof.Proof.Aggregate
import proofs.«110531_j12584254177938_2_alg».proof.Proof.Reference

set_option maxRecDepth 16384

noncomputable section

namespace Cert.GcnValue

open Cert.ReferenceIdeal Cert.ReferenceIdeal.Read Idealize.ShloMosaic Idealize.ShloMosaic.ValueIdx

/-- The reference's second transformed features are the second layer's transformed features of the comparison. -/
theorem reference_transform2 (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) :
    val_main_v54 (F := Ideal) x0 x1 x2 x3 x4 = transformed2 x0 x1 x2 x3 x4 := by
  have h := ref_transform2 x0 x1 x2 x3 x4
  rw [ref_agg1, ref_transform1] at h
  exact h

/-- The reference's result is the whole function of the comparison. -/
theorem reference_result (x0 : (⟨S50000x512, .f32⟩ : BufTy).Contents (Elt Ideal)) (x1 : (⟨S2x800000, .i32⟩ : BufTy).Contents (Elt Ideal)) (x2 : (⟨S512x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x384, .f32⟩ : BufTy).Contents (Elt Ideal)) (x7 : (⟨S384, .f32⟩ : BufTy).Contents (Elt Ideal)) (x8 : (⟨S384x40, .f32⟩ : BufTy).Contents (Elt Ideal)) (x9 : (⟨S40, .f32⟩ : BufTy).Contents (Elt Ideal)) :
    val_main_v112 (F := Ideal) x0 x1 x2 x3 x4 x5 x6 x7 x8 x9 = result x0 x1 x2 x3 x4 x5 x6 x7 x8 x9 := by
  have h := ref_result x0 x1 x2 x3 x4 x5 x6 x7 x8 x9
  rw [ref_agg2, ref_selfcoef, reference_transform2] at h
  exact h

end Cert.GcnValue

end
-- ==== Proof.lean ====
/-
  The five claims. Each program runs to the end with its arguments unchanged: the two kernel programs by their
  frames, the reference by its run. The idealized kernel program is the kernel program's own text, so nothing is
  to preserve. At the extended reals the kernel program's result array is the whole function of the arguments
  (two graph convolution layers and the head), the reference's result is the same function of its arguments,
  and the arguments agree.
-/
import proofs.«110531_j12584254177938_2_alg».proof.Defs
import proofs.«110531_j12584254177938_2_alg».proof.Proof.Gen.Kernel
import proofs.«110531_j12584254177938_2_alg».proof.Proof.Gen.Kernel.Skeleton
import proofs.«110531_j12584254177938_2_alg».proof.Proof.Gen.Kernel.Launch
import proofs.«110531_j12584254177938_2_alg».proof.Proof.Gen.Kernel.Points
import proofs.«110531_j12584254177938_2_alg».proof.Proof.Gen.Kernel.Frame
import proofs.«110531_j12584254177938_2_alg».proof.Proof.Gen.KernelIdeal
import proofs.«110531_j12584254177938_2_alg».proof.Proof.Gen.KernelIdeal.Skeleton
import proofs.«110531_j12584254177938_2_alg».proof.Proof.Gen.KernelIdeal.Launch
import proofs.«110531_j12584254177938_2_alg».proof.Proof.Gen.KernelIdeal.Points
import proofs.«110531_j12584254177938_2_alg».proof.Proof.Gen.KernelIdeal.Frame
import proofs.«110531_j12584254177938_2_alg».proof.Proof.Gen.ReferenceIdeal
import proofs.«110531_j12584254177938_2_alg».proof.Proof.Gen.ReferenceIdeal.Run
import proofs.«110531_j12584254177938_2_alg».proof.Proof.Gen.ReferenceIdeal.Read
import proofs.«110531_j12584254177938_2_alg».proof.Proof.Gen.Pre_finite_inputs
import proofs.«110531_j12584254177938_2_alg».proof.Proof.KernelRun
import proofs.«110531_j12584254177938_2_alg».proof.Proof.HostChain
import proofs.«110531_j12584254177938_2_alg».proof.Proof.Bridge
import Idealize.ShloMosaic.Adequacy
import Idealize.ShloMosaic.Init

noncomputable section

namespace Cert.Proof

open Idealize.ShloMosaic Idealize.SL.Sem Cert.Kernel

/-- The kernel program runs and leaves its arguments unchanged. -/
theorem frame_Kernel : Cert.frame_Kernel := fun m ρ _ => Cert.Kernel.Gen.frame m ρ

/-- The idealized kernel program runs and leaves its arguments unchanged. -/
theorem frame_KernelIdeal : Cert.frame_KernelIdeal := fun m ρ _ => Cert.KernelIdeal.Gen.frame m ρ

/-- The reference runs and leaves its arguments unchanged. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- At the extended reals both programs end with the whole function of the arguments in their result arrays. -/
theorem algebraic : Cert.algebraic_KernelIdeal_ReferenceIdeal := by
  intro m ρ m' ρ' _ hagree
  refine ⟨fun c => Cert.KernelIdeal.Gen.W6 (F := Ideal) m ρ c (Proc.devRef .tc Cert.KernelIdeal.main_v66),
    Cert.GcnValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v112_eq, Cert.GcnValue.reference_result, (hagree c).1, (hagree c).2.1,
    (hagree c).2.2.1, (hagree c).2.2.2.1, (hagree c).2.2.2.2.1, (hagree c).2.2.2.2.2.1, (hagree c).2.2.2.2.2.2.1,
    (hagree c).2.2.2.2.2.2.2.1, (hagree c).2.2.2.2.2.2.2.2.1, (hagree c).2.2.2.2.2.2.2.2.2]
  exact (Cert.GcnValue.kernel_result m ρ c).symm

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
